-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x48 : Shape := ⟨2, ![100000, 48]⟩
abbrev S2x1600000 : Shape := ⟨2, ![2, 1600000]⟩
abbrev S100000 : Shape := ⟨1, ![100000]⟩
abbrev S48x48 : Shape := ⟨2, ![48, 48]⟩
abbrev S48 : Shape := ⟨1, ![48]⟩
abbrev S48x2 : Shape := ⟨2, ![48, 2]⟩
abbrev S2 : Shape := ⟨1, ![2]⟩
abbrev S_ : Shape := ⟨0, ![]⟩

class Facts : Prop where
  bcast_S_S100000x48 : S_.BroadcastsInDim S100000x48 (![] : Fin 0 → Fin S100000x48.rank)
  reducesTo_S100000x48_S_d0_1 : S100000x48.ReducesTo [0, 1] S_
  h_S_ : 0 < S_.numel
  bcast_S_S48x48 : S_.BroadcastsInDim S48x48 (![] : Fin 0 → Fin S48x48.rank)
  reducesTo_S48x48_S_d0_1 : S48x48.ReducesTo [0, 1] S_
  bcast_S_S48 : S_.BroadcastsInDim S48 (![] : Fin 0 → Fin S48.rank)
  reducesTo_S48_S_d0 : S48.ReducesTo [0] S_
  bcast_S_S48x2 : S_.BroadcastsInDim S48x2 (![] : Fin 0 → Fin S48x2.rank)
  reducesTo_S48x2_S_d0_1 : S48x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg9 : FVec F S48x2 .f32) (main_arg10 : FVec F S2 .f32) (main_v33 : IVec S_ 1) : IVec S_ 1 :=
  let main_v34 : FVec F S48x2 .f32 := Host.absf main_arg9
  let main_cst_12 : FVec F S_ .f32 := constant S_ .f32 0x7F800000#32
  let main_v35 : FVec F S48x2 .f32 := broadcastInDim S48x2 ![] bcast_S_S48x2 main_cst_12
  let main_v36 : IVec S48x2 1 := cmpf .olt main_v34 main_v35
  let main_c_13 : IVec S_ 1 := constantI S_ 1 1#1
  let main_v37 : IVec S_ 1 := (fun x v => Host.reduce IntOp.andi x v reducesTo_S48x2_S_d0_1 h_S_) main_v36 main_c_13
  let main_v38 : IVec S_ 1 := andi main_v33 main_v37
  let main_v39 : FVec F S2 .f32 := Host.absf main_arg10
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg6 : FVec F S48 .f32) (main_arg7 : FVec F S48x48 .f32) (main_arg8 : FVec F S48 .f32) (main_arg9 : FVec F S48x2 .f32) (main_arg10 : FVec F S2 .f32) (main_v13 : IVec S_ 1) (main_v16 : IVec S48x48 1) : IVec S_ 1 :=
  let main_c_5 : IVec S_ 1 := constantI S_ 1 1#1
  let main_v17 : IVec S_ 1 := (fun x v => Host.reduce IntOp.andi x v reducesTo_S48x48_S_d0_1 h_S_) main_v16 main_c_5
  let main_v18 : IVec S_ 1 := andi main_v13 main_v17
  let main_v19 : FVec F S48 .f32 := Host.absf main_arg6
  let main_cst_6 : FVec F S_ .f32 := constant S_ .f32 0x7F800000#32
  let main_v20 : FVec F S48 .f32 := broadcastInDim S48 ![] bcast_S_S48 main_cst_6
  let main_v21 : IVec S48 1 := cmpf .olt main_v19 main_v20
  let main_c_7 : IVec S_ 1 := constantI S_ 1 1#1
  let main_v22 : IVec S_ 1 := (fun x v => Host.reduce IntOp.andi x v reducesTo_S48_S_d0 h_S_) main_v21 main_c_7
  let main_v23 : IVec S_ 1 := andi main_v18 main_v22
  let main_v24 : FVec F S48x48 .f32 := Host.absf main_arg7
  let main_cst_8 : FVec F S_ .f32 := constant S_ .f32 0x7F800000#32
  let main_v25 : FVec F S48x48 .f32 := broadcastInDim S48x48 ![] bcast_S_S48x48 main_cst_8
  let main_v26 : IVec S48x48 1 := cmpf .olt main_v24 main_v25
  let main_c_9 : IVec S_ 1 := constantI S_ 1 1#1
  let main_v27 : IVec S_ 1 := (fun x v => Host.reduce IntOp.andi x v reducesTo_S48x48_S_d0_1 h_S_) main_v26 main_c_9
  let main_v28 : IVec S_ 1 := andi main_v23 main_v27
  let main_v29 : FVec F S48 .f32 := Host.absf main_arg8
  let main_cst_10 : FVec F S_ .f32 := constant S_ .f32 0x7F800000#32
  let main_v30 : FVec F S48 .f32 := broadcastInDim S48 ![] bcast_S_S48 main_cst_10
  let main_v31 : IVec S48 1 := cmpf .olt main_v29 main_v30
  let main_c_11 : IVec S_ 1 := constantI S_ 1 1#1
  let main_v32 : IVec S_ 1 := (fun x v => Host.reduce IntOp.andi x v reducesTo_S48_S_d0 h_S_) main_v31 main_c_11
  let main_v33 : IVec S_ 1 := andi main_v28 main_v32
  fn_part2 (F := F) main_arg9 main_arg10 main_v33

def fn {F : FTy → Type} [FloatOps F] (main_arg0 : FVec F S100000x48 .f32) (main_arg1 : IVec S2x1600000 32) (main_arg2 : IVec S100000 32) (main_arg3 : FVec F S48x48 .f32) (main_arg4 : FVec F S48 .f32) (main_arg5 : FVec F S48x48 .f32) (main_arg6 : FVec F S48 .f32) (main_arg7 : FVec F S48x48 .f32) (main_arg8 : FVec F S48 .f32) (main_arg9 : FVec F S48x2 .f32) (main_arg10 : FVec F S2 .f32) : IVec S_ 1 :=
  let main_v0 : FVec F S100000x48 .f32 := Host.absf main_arg0
  let main_cst : FVec F S_ .f32 := constant S_ .f32 0x7F800000#32
  let main_v1 : FVec F S100000x48 .f32 := broadcastInDim S100000x48 ![] bcast_S_S100000x48 main_cst
  let main_v2 : IVec S100000x48 1 := cmpf .olt main_v0 main_v1
  let main_c : IVec S_ 1 := constantI S_ 1 1#1
  let main_v3 : IVec S_ 1 := (fun x v => Host.reduce IntOp.andi x v reducesTo_S100000x48_S_d0_1 h_S_) main_v2 main_c
  let main_v4 : FVec F S48x48 .f32 := Host.absf main_arg3
  let main_cst_0 : FVec F S_ .f32 := constant S_ .f32 0x7F800000#32
  let main_v5 : FVec F S48x48 .f32 := broadcastInDim S48x48 ![] bcast_S_S48x48 main_cst_0
  let main_v6 : IVec S48x48 1 := cmpf .olt main_v4 main_v5
  let main_c_1 : IVec S_ 1 := constantI S_ 1 1#1
  let main_v7 : IVec S_ 1 := (fun x v => Host.reduce IntOp.andi x v reducesTo_S48x48_S_d0_1 h_S_) main_v6 main_c_1
  let main_v8 : IVec S_ 1 := andi main_v3 main_v7
  let main_v9 : FVec F S48 .f32 := Host.absf main_arg4
  let main_cst_2 : FVec F S_ .f32 := constant S_ .f32 0x7F800000#32
  let main_v10 : FVec F S48 .f32 := broadcastInDim S48 ![] bcast_S_S48 main_cst_2
  let main_v11 : IVec S48 1 := cmpf .olt main_v9 main_v10
  let main_c_3 : IVec S_ 1 := constantI S_ 1 1#1
  let main_v12 : IVec S_ 1 := (fun x v => Host.reduce IntOp.andi x v reducesTo_S48_S_d0 h_S_) main_v11 main_c_3
  let main_v13 : IVec S_ 1 := andi main_v8 main_v12
  let main_v14 : FVec F S48x48 .f32 := Host.absf main_arg5
  let main_cst_4 : FVec F S_ .f32 := constant S_ .f32 0x7F800000#32
  let main_v15 : FVec F S48x48 .f32 := broadcastInDim S48x48 ![] bcast_S_S48x48 main_cst_4
  let main_v16 : IVec S48x48 1 := cmpf .olt main_v14 main_v15
  fn_part1 (F := F) main_arg6 main_arg7 main_arg8 main_arg9 main_arg10 main_v13 main_v16
-- ==== Kernel.lean ====
abbrev S100000x48 : Shape := ⟨2, ![100000, 48]⟩
abbrev S2x1600000 : Shape := ⟨2, ![2, 1600000]⟩
abbrev S100000 : Shape := ⟨1, ![100000]⟩
abbrev S48x48 : Shape := ⟨2, ![48, 48]⟩
abbrev S48 : Shape := ⟨1, ![48]⟩
abbrev S48x2 : Shape := ⟨2, ![48, 2]⟩
abbrev S2 : Shape := ⟨1, ![2]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x48 : Shape := ⟨2, ![10000, 48]⟩
abbrev S1700000x48 : Shape := ⟨2, ![1700000, 48]⟩
abbrev S1x48 : Shape := ⟨2, ![1, 48]⟩
abbrev S1024x48 : Shape := ⟨2, ![1024, 48]⟩
abbrev S100000x1 : Shape := ⟨2, ![100000, 1]⟩
abbrev S1024 : Shape := ⟨1, ![1024]⟩
abbrev S1024x1 : Shape := ⟨2, ![1024, 1]⟩
abbrev S1x2 : Shape := ⟨2, ![1, 2]⟩
abbrev S1024x2 : Shape := ⟨2, ![1024, 2]⟩

abbrev nBuf : Space → Nat
  | .hbm => 126
  | .vmem => 34
  | .smem => 0
  | _ => 0

abbrev bufTy : (tb : Table) → Fin (tcTables nBuf tb) → BufTy
  | .hbm, ⟨0, _⟩ => ⟨S100000x48, .f32⟩
  | .hbm, ⟨1, _⟩ => ⟨S2x1600000, .i32⟩
  | .hbm, ⟨2, _⟩ => ⟨S100000, .i32⟩
  | .hbm, ⟨3, _⟩ => ⟨S48x48, .f32⟩
  | .hbm, ⟨4, _⟩ => ⟨S48, .f32⟩
  | .hbm, ⟨5, _⟩ => ⟨S48x48, .f32⟩
  | .hbm, ⟨6, _⟩ => ⟨S48, .f32⟩
  | .hbm, ⟨7, _⟩ => ⟨S48x48, .f32⟩
  | .hbm, ⟨8, _⟩ => ⟨S48, .f32⟩
  | .hbm, ⟨9, _⟩ => ⟨S48x2, .f32⟩
  | .hbm, ⟨10, _⟩ => ⟨S2, .f32⟩
  | .hbm, ⟨11, _⟩ => ⟨S100000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S1x1600000, .i32⟩
  | .hbm, ⟨16, _⟩ => ⟨S1600000, .i32⟩
  | .hbm, ⟨17, _⟩ => ⟨S1700000, .i32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S100000x48, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x48, .f32⟩
  | .hbm, ⟨61, _⟩ => ⟨S1700000x1, .f32⟩
  | .hbm, ⟨62, _⟩ => ⟨S1700000x48, .f32⟩
  | .hbm, ⟨63, _⟩ => ⟨S1700000x48, .f32⟩
  | .hbm, ⟨64, _⟩ => ⟨S_, .f32⟩
  | .hbm, ⟨65, _⟩ => ⟨S100000x48, .f32⟩
  | .hbm, ⟨66, _⟩ => ⟨S1700000x1, .i32⟩
  | .hbm, ⟨67, _⟩ => ⟨S100000x48, .f32⟩
  | .hbm, ⟨68, _⟩ => ⟨S1x48, .f32⟩
  | .hbm, ⟨69, _⟩ => ⟨S100000x48, .f32⟩
  | .hbm, ⟨70, _⟩ => ⟨S100000x48, .f32⟩
  | .hbm, ⟨71, _⟩ => ⟨S_, .i32⟩
  | .hbm, ⟨72, _⟩ => ⟨S1700000, .i32⟩
  | .hbm, ⟨73, _⟩ => ⟨S1700000, .i1⟩
  | .hbm, ⟨74, _⟩ => ⟨S_, .i32⟩
  | .hbm, ⟨75, _⟩ => ⟨S1700000, .i32⟩
  | .hbm, ⟨76, _⟩ => ⟨S1700000, .i32⟩
  | .hbm, ⟨77, _⟩ => ⟨S1700000, .i32⟩
  | .hbm, ⟨78, _⟩ => ⟨S1700000x1, .i32⟩
  | .hbm, ⟨79, _⟩ => ⟨S1700000x48, .f32⟩
  | .hbm, ⟨80, _⟩ => ⟨S1700000x1, .f32⟩
  | .hbm, ⟨81, _⟩ => ⟨S1700000x48, .f32⟩
  | .hbm, ⟨82, _⟩ => ⟨S1700000x48, .f32⟩
  | .hbm, ⟨83, _⟩ => ⟨S_, .f32⟩
  | .hbm, ⟨84, _⟩ => ⟨S100000x48, .f32⟩
  | .hbm, ⟨85, _⟩ => ⟨S1700000x1, .i32⟩
  | .hbm, ⟨86, _⟩ => ⟨S100000x48, .f32⟩
  | .hbm, ⟨87, _⟩ => ⟨S1x48, .f32⟩
  | .hbm, ⟨88, _⟩ => ⟨S100000x48, .f32⟩
  | .hbm, ⟨89, _⟩ => ⟨S100000x48, .f32⟩
  | .hbm, ⟨90, _⟩ => ⟨S_, .i32⟩
  | .hbm, ⟨91, _⟩ => ⟨S1700000, .i32⟩
  | .hbm, ⟨92, _⟩ => ⟨S1700000, .i1⟩
  | .hbm, ⟨93, _⟩ => ⟨S_, .i32⟩
  | .hbm, ⟨94, _⟩ => ⟨S1700000, .i32⟩
  | .hbm, ⟨95, _⟩ => ⟨S1700000, .i32⟩
  | .hbm, ⟨96, _⟩ => ⟨S1700000, .i32⟩
  | .hbm, ⟨97, _⟩ => ⟨S1700000x1, .i32⟩
  | .hbm, ⟨98, _⟩ => ⟨S1700000x48, .f32⟩
  | .hbm, ⟨99, _⟩ => ⟨S1700000x1, .f32⟩
  | .hbm, ⟨100, _⟩ => ⟨S1700000x48, .f32⟩
  | .hbm, ⟨101, _⟩ => ⟨S1700000x48, .f32⟩
  | .hbm, ⟨102, _⟩ => ⟨S_, .f32⟩
  | .hbm, ⟨103, _⟩ => ⟨S100000x48, .f32⟩
  | .hbm, ⟨104, _⟩ => ⟨S1700000x1, .i32⟩
  | .hbm, ⟨105, _⟩ => ⟨S100000x48, .f32⟩
  | .hbm, ⟨106, _⟩ => ⟨S1x48, .f32⟩
  | .hbm, ⟨107, _⟩ => ⟨S100000x48, .f32⟩
  | .hbm, ⟨108, _⟩ => ⟨S_, .f32⟩
  | .hbm, ⟨109, _⟩ => ⟨S1024x48, .f32⟩
  | .hbm, ⟨110, _⟩ => ⟨S100000x1, .i32⟩
  | .hbm, ⟨111, _⟩ => ⟨S1024x48, .f32⟩
  | .hbm, ⟨112, _⟩ => ⟨S_, .f32⟩
  | .hbm, ⟨113, _⟩ => ⟨S100000, .f32⟩
  | .hbm, ⟨114, _⟩ => ⟨S_, .f32⟩
  | .hbm, ⟨115, _⟩ => ⟨S1024, .f32⟩
  | .hbm, ⟨116, _⟩ => ⟨S100000x1, .i32⟩
  | .hbm, ⟨117, _⟩ => ⟨S1024, .f32⟩
  | .hbm, ⟨118, _⟩ => ⟨S_, .f32⟩
  | .hbm, ⟨119, _⟩ => ⟨S1024, .f32⟩
  | .hbm, ⟨120, _⟩ => ⟨S1024, .f32⟩
  | .hbm, ⟨121, _⟩ => ⟨S1024x1, .f32⟩
  | .hbm, ⟨122, _⟩ => ⟨S1024x48, .f32⟩
  | .hbm, ⟨123, _⟩ => ⟨S1024x48, .f32⟩
  | .hbm, ⟨124, _⟩ => ⟨S1x2, .f32⟩
  | .hbm, ⟨125, _⟩ => ⟨S1024x2, .f32⟩
  | .local _ .vmem, ⟨0, _⟩ => ⟨S10000x48, .f32⟩
  | .local _ .vmem, ⟨1, _⟩ => ⟨S10000x48, .f32⟩
  | .local _ .vmem, ⟨2, _⟩ => ⟨S48x48, .f32⟩
  | .local _ .vmem, ⟨3, _⟩ => ⟨S10000x48, .f32⟩
  | .local _ .vmem, ⟨4, _⟩ => ⟨S10000x48, .f32⟩
  | .local _ .vmem, ⟨5, _⟩ => ⟨S10000x48, .f32⟩
  | .local _ .vmem, ⟨6, _⟩ => ⟨S10000x48, .f32⟩
  | .local _ .vmem, ⟨7, _⟩ => ⟨S1x48, .f32⟩
  | .local _ .vmem, ⟨8, _⟩ => ⟨S10000x48, .f32⟩
  | .local _ .vmem, ⟨9, _⟩ => ⟨S10000x48, .f32⟩
  | .local _ .vmem, ⟨10, _⟩ => ⟨S10000x48, .f32⟩
  | .local _ .vmem, ⟨11, _⟩ => ⟨S10000x48, .f32⟩
  | .local _ .vmem, ⟨12, _⟩ => ⟨S48x48, .f32⟩
  | .local _ .vmem, ⟨13, _⟩ => ⟨S10000x48, .f32⟩
  | .local _ .vmem, ⟨14, _⟩ => ⟨S10000x48, .f32⟩
  | .local _ .vmem, ⟨15, _⟩ => ⟨S10000x48, .f32⟩
  | .local _ .vmem, ⟨16, _⟩ => ⟨S10000x48, .f32⟩
  | .local _ .vmem, ⟨17, _⟩ => ⟨S1x48, .f32⟩
  | .local _ .vmem, ⟨18, _⟩ => ⟨S10000x48, .f32⟩
  | .local _ .vmem, ⟨19, _⟩ => ⟨S10000x48, .f32⟩
  | .local _ .vmem, ⟨20, _⟩ => ⟨S10000x48, .f32⟩
  | .local _ .vmem, ⟨21, _⟩ => ⟨S10000x48, .f32⟩
  | .local _ .vmem, ⟨22, _⟩ => ⟨S48x48, .f32⟩
  | .local _ .vmem, ⟨23, _⟩ => ⟨S10000x48, .f32⟩
  | .local _ .vmem, ⟨24, _⟩ => ⟨S10000x48, .f32⟩
  | .local _ .vmem, ⟨25, _⟩ => ⟨S10000x48, .f32⟩
  | .local _ .vmem, ⟨26, _⟩ => ⟨S10000x48, .f32⟩
  | .local _ .vmem, ⟨27, _⟩ => ⟨S1x48, .f32⟩
  | .local _ .vmem, ⟨28, _⟩ => ⟨S10000x48, .f32⟩
  | .local _ .vmem, ⟨29, _⟩ => ⟨S10000x48, .f32⟩
  | .local _ .vmem, ⟨30, _⟩ => ⟨S1024x48, .f32⟩
  | .local _ .vmem, ⟨31, _⟩ => ⟨S48x2, .f32⟩
  | .local _ .vmem, ⟨32, _⟩ => ⟨S1x2, .f32⟩
  | .local _ .vmem, ⟨33, _⟩ => ⟨S1024x2, .f32⟩
  | _, _ => ⟨S100000x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_9 : Ref sig .tc := ⟨.hbm, 71, rfl⟩
abbrev main_v47 : Ref sig .tc := ⟨.hbm, 72, rfl⟩
abbrev main_v48 : Ref sig .tc := ⟨.hbm, 73, rfl⟩
abbrev main_c_10 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_11 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_c_12 : Ref sig .tc := ⟨.hbm, 90, rfl⟩
abbrev main_v63 : Ref sig .tc := ⟨.hbm, 91, rfl⟩
abbrev main_v64 : Ref sig .tc := ⟨.hbm, 92, rfl⟩
abbrev main_c_13 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_14 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_15 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_16 : Ref sig .tc := ⟨.hbm, 112, rfl⟩
abbrev main_v81 : Ref sig .tc := ⟨.hbm, 113, rfl⟩
abbrev main_cst_17 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_18 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg1_0 : Ref sig .tc := ⟨.vmem, 31, rfl⟩
abbrev cc6_stg2_0 : Ref sig .tc := ⟨.vmem, 32, rfl⟩
abbrev cc6_stg3_0 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem1_0 : DmaSem sig := 31
abbrev cc6_sem2_0 : DmaSem sig := 32
abbrev cc6_sem3_0 : DmaSem sig := 33

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x48 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S48x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x48 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x48 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x48 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x48 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x48 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S48x48 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x48 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x48 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x48 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x48 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x48 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S48x48 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x48 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x48 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x48 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x48 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S1024x48 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S48x2 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x2 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1024x2 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x48_S10000x48_0_0 : ∀ a, (![0, 0] : Fin 2 → Nat) a + S10000x48.size a ≤ S10000x48.size a
  h_S10000x48 : 0 < S10000x48.numel
  bitsLt_bf16_f32 : FTy.bits .bf16 < FTy.bits .f32
  inb_S48x48_S48x48_0_0 : ∀ a, (![0, 0] : Fin 2 → Nat) a + S48x48.size a ≤ S48x48.size a
  h_S48x48 : 0 < S48x48.numel
  bcast_S1700000x1_S1700000x48_0_1 : S1700000x1.BroadcastsInDim S1700000x48 (![0, 1] : Fin 2 → Fin S1700000x48.rank)
  bcast_S_S100000x48 : S_.BroadcastsInDim S100000x48 (![] : Fin 0 → Fin S100000x48.rank)
  shapeCasts_S48_S1x48 : S48.ShapeCasts S1x48
  shapeCasts_S10000x48_S10000x48 : S10000x48.ShapeCasts S10000x48
  inb_S1x48_S1x48_0_0 : ∀ a, (![0, 0] : Fin 2 → Nat) a + S1x48.size a ≤ S1x48.size a
  h_S1x48 : 0 < S1x48.numel
  shapeCasts_S1x48_S1x48 : S1x48.ShapeCasts S1x48
  broadcasts_S1x48_S10000x48 : S1x48.Broadcasts S10000x48
  bcast_S_S1024x48 : S_.BroadcastsInDim S1024x48 (![] : Fin 0 → Fin S1024x48.rank)
  bcast_S100000_S100000x1_0 : S100000.BroadcastsInDim S100000x1 (![0] : Fin 1 → Fin S100000x1.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x48_0_1 : S1024x1.BroadcastsInDim S1024x48 (![0, 1] : Fin 2 → Fin S1024x48.rank)
  shapeCasts_S2_S1x2 : S2.ShapeCasts S1x2
  inb_S1024x48_S1024x48_0_0 : ∀ a, (![0, 0] : Fin 2 → Nat) a + S1024x48.size a ≤ S1024x48.size a
  h_S1024x48 : 0 < S1024x48.numel
  shapeCasts_S1024x48_S1024x48 : S1024x48.ShapeCasts S1024x48
  inb_S48x2_S48x2_0_0 : ∀ a, (![0, 0] : Fin 2 → Nat) a + S48x2.size a ≤ S48x2.size a
  h_S48x2 : 0 < S48x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S1024x2 : S1x2.Broadcasts S1024x2
  inb_S1024x2_S1024x2_0_0 : ∀ a, (![0, 0] : Fin 2 → Nat) a + S1024x2.size a ≤ S1024x2.size a
  h_S1024x2 : 0 < S1024x2.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x48_S48x48_S10000x48_1_0_0_1_n_n_wf : DotDims.WF S10000x48 S48x48 S10000x48 [1] [0] [0] [1] [] []
  gather_S100000x48_S1700000x1_S1700000x48_1_0_n_n_0_1_148_wf : GatherDims.WF S100000x48 S1700000x1 S1700000x48 [1] [0] [] [0] [] 1 ![1, 48]
  scatter_S100000x48_S1700000x1_S1700000x48_1_0_0_1_wf : ScatterDims.WF S100000x48 S1700000x1 S1700000x48 [1] [0] [0] 1
  scatter_S1024x48_S100000x1_S100000x48_1_0_0_1_wf : ScatterDims.WF S1024x48 S100000x1 S100000x48 [1] [0] [0] 1
  scatter_S1024_S100000x1_S100000_n_0_0_1_wf : ScatterDims.WF S1024 S100000x1 S100000 [] [0] [0] 1
  dot_S1024x48_S48x2_S1024x2_1_0_0_1_n_n_wf : DotDims.WF S1024x48 S48x2 S1024x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x48.size a ≤ S100000x48.size a
  hwx0_0 : ∀ i : grid0.Coords, EltTy.bits .f32 = 32 ∨ (Rect.block (s := S100000x48) S10000x48.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S48x48.size a ≤ S48x48.size a
  hwx0_1 : ∀ i : grid0.Coords, EltTy.bits .f32 = 32 ∨ (Rect.block (s := S48x48) S48x48.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x48.size a ≤ S100000x48.size a
  hwx0_2 : ∀ i : grid0.Coords, EltTy.bits .f32 = 32 ∨ (Rect.block (s := S100000x48) S10000x48.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x48.size a ≤ S100000x48.size a
  hwx1_0 : ∀ i : grid1.Coords, EltTy.bits .f32 = 32 ∨ (Rect.block (s := S100000x48) S10000x48.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x48.size a ≤ S1x48.size a
  hwx1_1 : ∀ i : grid1.Coords, EltTy.bits .f32 = 32 ∨ (Rect.block (s := S1x48) S1x48.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x48.size a ≤ S100000x48.size a
  hwx1_2 : ∀ i : grid1.Coords, EltTy.bits .f32 = 32 ∨ (Rect.block (s := S100000x48) S10000x48.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x48.size a ≤ S100000x48.size a
  hwx2_0 : ∀ i : grid2.Coords, EltTy.bits .f32 = 32 ∨ (Rect.block (s := S100000x48) S10000x48.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S48x48.size a ≤ S48x48.size a
  hwx2_1 : ∀ i : grid2.Coords, EltTy.bits .f32 = 32 ∨ (Rect.block (s := S48x48) S48x48.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x48.size a ≤ S100000x48.size a
  hwx2_2 : ∀ i : grid2.Coords, EltTy.bits .f32 = 32 ∨ (Rect.block (s := S100000x48) S10000x48.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x48.size a ≤ S100000x48.size a
  hwx3_0 : ∀ i : grid3.Coords, EltTy.bits .f32 = 32 ∨ (Rect.block (s := S100000x48) S10000x48.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x48.size a ≤ S1x48.size a
  hwx3_1 : ∀ i : grid3.Coords, EltTy.bits .f32 = 32 ∨ (Rect.block (s := S1x48) S1x48.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x48.size a ≤ S100000x48.size a
  hwx3_2 : ∀ i : grid3.Coords, EltTy.bits .f32 = 32 ∨ (Rect.block (s := S100000x48) S10000x48.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x48.size a ≤ S100000x48.size a
  hwx4_0 : ∀ i : grid4.Coords, EltTy.bits .f32 = 32 ∨ (Rect.block (s := S100000x48) S10000x48.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S48x48.size a ≤ S48x48.size a
  hwx4_1 : ∀ i : grid4.Coords, EltTy.bits .f32 = 32 ∨ (Rect.block (s := S48x48) S48x48.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x48.size a ≤ S100000x48.size a
  hwx4_2 : ∀ i : grid4.Coords, EltTy.bits .f32 = 32 ∨ (Rect.block (s := S100000x48) S10000x48.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x48.size a ≤ S100000x48.size a
  hwx5_0 : ∀ i : grid5.Coords, EltTy.bits .f32 = 32 ∨ (Rect.block (s := S100000x48) S10000x48.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x48.size a ≤ S1x48.size a
  hwx5_1 : ∀ i : grid5.Coords, EltTy.bits .f32 = 32 ∨ (Rect.block (s := S1x48) S1x48.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x48.size a ≤ S100000x48.size a
  hwx5_2 : ∀ i : grid5.Coords, EltTy.bits .f32 = 32 ∨ (Rect.block (s := S100000x48) S10000x48.size (cc5_transform_2 i) (hinb5_2 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S1024x48.size a ≤ S1024x48.size a
  hwx6_0 : ∀ i : grid6.Coords, EltTy.bits .f32 = 32 ∨ (Rect.block (s := S1024x48) S1024x48.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S48x2.size a ≤ S48x2.size a
  hwx6_1 : ∀ i : grid6.Coords, EltTy.bits .f32 = 32 ∨ (Rect.block (s := S48x2) S48x2.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x2.size a ≤ S1x2.size a
  hwx6_2 : ∀ i : grid6.Coords, EltTy.bits .f32 = 32 ∨ (Rect.block (s := S1x2) S1x2.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1024x2.size a ≤ S1024x2.size a
  hwx6_3 : ∀ i : grid6.Coords, EltTy.bits .f32 = 32 ∨ (Rect.block (s := S1024x2) S1024x2.size (cc6_transform_3 i) (hinb6_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x48_S48x48_S10000x48_1_0_0_1_n_n : DotDims S10000x48 S48x48 S10000x48 where
  lhsContracting := [1]
  rhsContracting := [0]
  lhsNonContracting := [0]
  rhsNonContracting := [1]
  lhsBatch := []
  rhsBatch := []
  wf := dot_S10000x48_S48x48_S10000x48_1_0_0_1_n_n_wf
def gather_S100000x48_S1700000x1_S1700000x48_1_0_n_n_0_1_148 : GatherDims S100000x48 S1700000x1 S1700000x48 where
  offsetDims := [1]
  collapsedSliceDims := [0]
  operandBatchingDims := []
  startIndicesBatchingDims := []
  startIndexMap := [0]
  indexVectorDim := 1
  sliceSizes := ![1, 48]
  wf := gather_S100000x48_S1700000x1_S1700000x48_1_0_n_n_0_1_148_wf
def scatter_S100000x48_S1700000x1_S1700000x48_1_0_0_1 : ScatterDims S100000x48 S1700000x1 S1700000x48 where
  updateWindowDims := [1]
  insertedWindowDims := [0]
  scatterDimsToOperandDims := [0]
  indexVectorDim := 1
  wf := scatter_S100000x48_S1700000x1_S1700000x48_1_0_0_1_wf
def scatter_S1024x48_S100000x1_S100000x48_1_0_0_1 : ScatterDims S1024x48 S100000x1 S100000x48 where
  updateWindowDims := [1]
  insertedWindowDims := [0]
  scatterDimsToOperandDims := [0]
  indexVectorDim := 1
  wf := scatter_S1024x48_S100000x1_S100000x48_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def dot_S1024x48_S48x2_S1024x2_1_0_0_1_n_n : DotDims S1024x48 S48x2 S1024x2 where
  lhsContracting := [1]
  rhsContracting := [0]
  lhsNonContracting := [0]
  rhsNonContracting := [1]
  lhsBatch := []
  rhsBatch := []
  wf := dot_S1024x48_S48x2_S1024x2_1_0_0_1_n_n_wf

abbrev win0_0 : Pipeline.Window sig grid0 :=
  Pipeline.Window.ofSpec (Memref.whole main_arg0) S10000x48.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S48x48.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x48.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x48.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x48.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x48.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x48.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S48x48.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x48.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S10000x48.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x48.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S10000x48.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S10000x48.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S48x48.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S10000x48.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S10000x48.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x48.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S10000x48.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v89) S1024x48.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S48x2.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v90) S1x2.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v91) S1024x2.size cc6_transform_3 reads6_3 true true 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S100000x48 : Shape := ⟨2, ![100000, 48]⟩
abbrev S2x1600000 : Shape := ⟨2, ![2, 1600000]⟩
abbrev S100000 : Shape := ⟨1, ![100000]⟩
abbrev S48x48 : Shape := ⟨2, ![48, 48]⟩
abbrev S48 : Shape := ⟨1, ![48]⟩
abbrev S48x2 : Shape := ⟨2, ![48, 2]⟩
abbrev S2 : Shape := ⟨1, ![2]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x48 : Shape := ⟨2, ![1700000, 48]⟩
abbrev S1x48 : Shape := ⟨2, ![1, 48]⟩
abbrev S1024x48 : Shape := ⟨2, ![1024, 48]⟩
abbrev S100000x1 : Shape := ⟨2, ![100000, 1]⟩
abbrev S1024 : Shape := ⟨1, ![1024]⟩
abbrev S1024x1 : Shape := ⟨2, ![1024, 1]⟩
abbrev S1024x2 : Shape := ⟨2, ![1024, 2]⟩
abbrev S1x2 : Shape := ⟨2, ![1, 2]⟩

abbrev nBuf : Space → Nat
  | .hbm => 140
  | .vmem => 0
  | .smem => 0
  | _ => 0

abbrev hbmTy0_0 (i : Nat) : BufTy := match i % 128 with
  | 0 => ⟨S100000x48, .f32⟩
  | 1 => ⟨S2x1600000, .i32⟩
  | 2 => ⟨S100000, .i32⟩
  | 3 => ⟨S48x48, .f32⟩
  | 4 => ⟨S48, .f32⟩
  | 5 => ⟨S48x48, .f32⟩
  | 6 => ⟨S48, .f32⟩
  | 7 => ⟨S48x48, .f32⟩
  | 8 => ⟨S48, .f32⟩
  | 9 => ⟨S48x2, .f32⟩
  | 10 => ⟨S2, .f32⟩
  | 11 => ⟨S100000, .i32⟩
  | 12 => ⟨S1x1600000, .i32⟩
  | 13 => ⟨S1600000, .i32⟩
  | 14 => ⟨S1700000, .i32⟩
  | 15 => ⟨S1x1600000, .i32⟩
  | 16 => ⟨S1600000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S100000x48, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x48, .f32⟩
  | 61 => ⟨S1700000x1, .f32⟩
  | 62 => ⟨S1700000x48, .f32⟩
  | 63 => ⟨S1700000x48, .f32⟩
  | 64 => ⟨S_, .f32⟩
  | 65 => ⟨S100000x48, .f32⟩
  | 66 => ⟨S1700000x1, .i32⟩
  | 67 => ⟨S100000x48, .f32⟩
  | 68 => ⟨S1x48, .f32⟩
  | 69 => ⟨S100000x48, .f32⟩
  | 70 => ⟨S100000x48, .f32⟩
  | 71 => ⟨S_, .f32⟩
  | 72 => ⟨S100000x48, .f32⟩
  | 73 => ⟨S100000x48, .f32⟩
  | 74 => ⟨S100000x48, .f32⟩
  | 75 => ⟨S_, .i32⟩
  | 76 => ⟨S1700000, .i32⟩
  | 77 => ⟨S1700000, .i1⟩
  | 78 => ⟨S_, .i32⟩
  | 79 => ⟨S1700000, .i32⟩
  | 80 => ⟨S1700000, .i32⟩
  | 81 => ⟨S1700000, .i32⟩
  | 82 => ⟨S1700000x1, .i32⟩
  | 83 => ⟨S1700000x48, .f32⟩
  | 84 => ⟨S1700000x1, .f32⟩
  | 85 => ⟨S1700000x48, .f32⟩
  | 86 => ⟨S1700000x48, .f32⟩
  | 87 => ⟨S_, .f32⟩
  | 88 => ⟨S100000x48, .f32⟩
  | 89 => ⟨S1700000x1, .i32⟩
  | 90 => ⟨S100000x48, .f32⟩
  | 91 => ⟨S1x48, .f32⟩
  | 92 => ⟨S100000x48, .f32⟩
  | 93 => ⟨S100000x48, .f32⟩
  | 94 => ⟨S_, .f32⟩
  | 95 => ⟨S100000x48, .f32⟩
  | 96 => ⟨S100000x48, .f32⟩
  | 97 => ⟨S100000x48, .f32⟩
  | 98 => ⟨S_, .i32⟩
  | 99 => ⟨S1700000, .i32⟩
  | 100 => ⟨S1700000, .i1⟩
  | 101 => ⟨S_, .i32⟩
  | 102 => ⟨S1700000, .i32⟩
  | 103 => ⟨S1700000, .i32⟩
  | 104 => ⟨S1700000, .i32⟩
  | 105 => ⟨S1700000x1, .i32⟩
  | 106 => ⟨S1700000x48, .f32⟩
  | 107 => ⟨S1700000x1, .f32⟩
  | 108 => ⟨S1700000x48, .f32⟩
  | 109 => ⟨S1700000x48, .f32⟩
  | 110 => ⟨S_, .f32⟩
  | 111 => ⟨S100000x48, .f32⟩
  | 112 => ⟨S1700000x1, .i32⟩
  | 113 => ⟨S100000x48, .f32⟩
  | 114 => ⟨S1x48, .f32⟩
  | 115 => ⟨S100000x48, .f32⟩
  | 116 => ⟨S100000x48, .f32⟩
  | 117 => ⟨S_, .f32⟩
  | 118 => ⟨S100000x48, .f32⟩
  | 119 => ⟨S100000x48, .f32⟩
  | 120 => ⟨S_, .f32⟩
  | 121 => ⟨S1024x48, .f32⟩
  | 122 => ⟨S100000x1, .i32⟩
  | 123 => ⟨S1024x48, .f32⟩
  | 124 => ⟨S_, .f32⟩
  | 125 => ⟨S100000, .f32⟩
  | 126 => ⟨S_, .f32⟩
  | 127 => ⟨S1024, .f32⟩
  | _ => ⟨S100000x48, .f32⟩

abbrev hbmTy0_1 (i : Nat) : BufTy := match i % 128 with
  | 0 => ⟨S100000x1, .i32⟩
  | 1 => ⟨S1024, .f32⟩
  | 2 => ⟨S_, .f32⟩
  | 3 => ⟨S1024, .f32⟩
  | 4 => ⟨S1024, .f32⟩
  | 5 => ⟨S1024x1, .f32⟩
  | 6 => ⟨S1024x48, .f32⟩
  | 7 => ⟨S1024x48, .f32⟩
  | 8 => ⟨S1024x2, .f32⟩
  | 9 => ⟨S1x2, .f32⟩
  | 10 => ⟨S1024x2, .f32⟩
  | 11 => ⟨S1024x2, .f32⟩
  | _ => ⟨S100000x48, .f32⟩

abbrev hbmTy (i : Nat) : BufTy := match i / 128 with
  | 0 => hbmTy0_0 i
  | 1 => hbmTy0_1 i
  | _ => ⟨S100000x48, .f32⟩

abbrev bufTy : (tb : Table) → Fin (tcTables nBuf tb) → BufTy
  | .hbm, ⟨i, _⟩ => hbmTy i
  | _, _ => ⟨S100000x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_v48 : Ref sig .tc := ⟨.hbm, 74, rfl⟩
abbrev main_c_9 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_11 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_call2_cst : Ref sig .tc := ⟨.hbm, 94, rfl⟩
abbrev main_call2_v0 : Ref sig .tc := ⟨.hbm, 95, rfl⟩
abbrev main_v65 : Ref sig .tc := ⟨.hbm, 96, rfl⟩
abbrev main_v66 : Ref sig .tc := ⟨.hbm, 97, rfl⟩
abbrev main_c_12 : Ref sig .tc := ⟨.hbm, 98, rfl⟩
abbrev main_v67 : Ref sig .tc := ⟨.hbm, 99, rfl⟩
abbrev main_v68 : Ref sig .tc := ⟨.hbm, 100, rfl⟩
abbrev main_c_13 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_14 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_call3_cst : Ref sig .tc := ⟨.hbm, 117, rfl⟩
abbrev main_call3_v0 : Ref sig .tc := ⟨.hbm, 118, rfl⟩
abbrev main_v83 : Ref sig .tc := ⟨.hbm, 119, rfl⟩
abbrev main_cst_15 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_16 : Ref sig .tc := ⟨.hbm, 124, rfl⟩
abbrev main_v87 : Ref sig .tc := ⟨.hbm, 125, rfl⟩
abbrev main_cst_17 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_cst_18 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x48_0_1 : S1700000x1.BroadcastsInDim S1700000x48 (![0, 1] : Fin 2 → Fin S1700000x48.rank)
  bcast_S_S100000x48 : S_.BroadcastsInDim S100000x48 (![] : Fin 0 → Fin S100000x48.rank)
  bcast_S48_S1x48_1 : S48.BroadcastsInDim S1x48 (![1] : Fin 1 → Fin S1x48.rank)
  bcast_S1x48_S100000x48_0_1 : S1x48.BroadcastsInDim S100000x48 (![0, 1] : Fin 2 → Fin S100000x48.rank)
  bcast_S_S1024x48 : S_.BroadcastsInDim S1024x48 (![] : Fin 0 → Fin S1024x48.rank)
  bcast_S100000_S100000x1_0 : S100000.BroadcastsInDim S100000x1 (![0] : Fin 1 → Fin S100000x1.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x48_0_1 : S1024x1.BroadcastsInDim S1024x48 (![0, 1] : Fin 2 → Fin S1024x48.rank)
  bcast_S2_S1x2_1 : S2.BroadcastsInDim S1x2 (![1] : Fin 1 → Fin S1x2.rank)
  bcast_S1x2_S1024x2_0_1 : S1x2.BroadcastsInDim S1024x2 (![0, 1] : Fin 2 → Fin S1024x2.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x48_S48x48_S100000x48_1_0_0_1_n_n_wf : DotDims.WF S100000x48 S48x48 S100000x48 [1] [0] [0] [1] [] []
  gather_S100000x48_S1700000x1_S1700000x48_1_0_n_n_0_1_148_wf : GatherDims.WF S100000x48 S1700000x1 S1700000x48 [1] [0] [] [0] [] 1 ![1, 48]
  scatter_S100000x48_S1700000x1_S1700000x48_1_0_0_1_wf : ScatterDims.WF S100000x48 S1700000x1 S1700000x48 [1] [0] [0] 1
  scatter_S1024x48_S100000x1_S100000x48_1_0_0_1_wf : ScatterDims.WF S1024x48 S100000x1 S100000x48 [1] [0] [0] 1
  scatter_S1024_S100000x1_S100000_n_0_0_1_wf : ScatterDims.WF S1024 S100000x1 S100000 [] [0] [0] 1
  dot_S1024x48_S48x2_S1024x2_1_0_0_1_n_n_wf : DotDims.WF S1024x48 S48x2 S1024x2 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x48_S48x48_S100000x48_1_0_0_1_n_n : DotDims S100000x48 S48x48 S100000x48 where
  lhsContracting := [1]
  rhsContracting := [0]
  lhsNonContracting := [0]
  rhsNonContracting := [1]
  lhsBatch := []
  rhsBatch := []
  wf := dot_S100000x48_S48x48_S100000x48_1_0_0_1_n_n_wf
def gather_S100000x48_S1700000x1_S1700000x48_1_0_n_n_0_1_148 : GatherDims S100000x48 S1700000x1 S1700000x48 where
  offsetDims := [1]
  collapsedSliceDims := [0]
  operandBatchingDims := []
  startIndicesBatchingDims := []
  startIndexMap := [0]
  indexVectorDim := 1
  sliceSizes := ![1, 48]
  wf := gather_S100000x48_S1700000x1_S1700000x48_1_0_n_n_0_1_148_wf
def scatter_S100000x48_S1700000x1_S1700000x48_1_0_0_1 : ScatterDims S100000x48 S1700000x1 S1700000x48 where
  updateWindowDims := [1]
  insertedWindowDims := [0]
  scatterDimsToOperandDims := [0]
  indexVectorDim := 1
  wf := scatter_S100000x48_S1700000x1_S1700000x48_1_0_0_1_wf
def scatter_S1024x48_S100000x1_S100000x48_1_0_0_1 : ScatterDims S1024x48 S100000x1 S100000x48 where
  updateWindowDims := [1]
  insertedWindowDims := [0]
  scatterDimsToOperandDims := [0]
  indexVectorDim := 1
  wf := scatter_S1024x48_S100000x1_S100000x48_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def dot_S1024x48_S48x2_S1024x2_1_0_0_1_n_n : DotDims S1024x48 S48x2 S1024x2 where
  lhsContracting := [1]
  rhsContracting := [0]
  lhsNonContracting := [0]
  rhsNonContracting := [1]
  lhsBatch := []
  rhsBatch := []
  wf := dot_S1024x48_S48x2_S1024x2_1_0_0_1_n_n_wf

class Facts : Prop extends Facts₀ where

variable [Facts]
-- ==== Proof.KRun.lean ====
/-
  The idealized kernel's run with its result named.

  @main is seven pipelined regions among stretches of host operations. Run from a launch memory, every weakly fair
  execution ends with each buffer the TensorCore keeps holding the last boundary's contents: the fold of the host
  stretches and of the regions' write-backs over the launch memory. Read at the result buffer and at the eleven
  arguments, that is the run the value claim needs: the result at the fold's value there, the arguments as launched.
-/
import proofs.«169536_j47407849013436_1_alg».proof.Proof.Gen.KernelIdeal.Frame

set_option maxRecDepth 16384

noncomputable section

namespace Cert.KernelIdeal.RunAll

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every buffer the TensorCore keeps at the
    last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W14 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c b hb => h c b hb)

/-- The same run read at the result and at the arguments: the result holds the fold's value at its buffer, each
    argument what it was launched with. -/
theorem run_result : θ_run defs (onTc (τ := τ) (main (F := F))) ⟨m, fun _ => 0, ρ⟩ (fun r => ∀ c : Dev nD,
      r.2.mem ((c.tc : Thread nD τ).loc main_v91) = W14 m ρ c (Proc.devRef .tc main_v91)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
      ⟨h c _ (mem_uc main_v91 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c)⟩)
    (run_all m ρ)

end Cert.KernelIdeal.RunAll

end
-- ==== Proof.LibTypedRef.lean ====
/-
  A typed reference to a buffer (the handle an outlined function's operations use) moves contents between the value's
  type and the buffer's type along the equation of the two. Moving contents to the buffer's type and back gives them
  back unchanged, whatever the reference.
-/
import Idealize.ShloMosaic.Lib.StableHlo

namespace Cert.LibTypedRef

open Idealize.ShloMosaic Idealize.ShloMosaic.StableHlo

/-- Contents moved to a typed reference's buffer type and back are unchanged. -/
theorem ofBuf_toBuf {sig : RefSig} {T : BufTy} {Val : EltTy → Type} (x : TRef sig T) (v : T.Contents Val) :
    x.ofBuf (x.toBuf v) = v := by
  obtain ⟨ref, ty_eq, h1, h2⟩ := x
  subst ty_eq
  rfl

end Cert.LibTypedRef
-- ==== Proof.KBase.lean ====
/-
  The graph's normalisation — everything @main computes before its first region — in the idealized kernel is the
  reference's, value by value.

  Both programs build the edge list with self-loops appended (sources v3, destinations v6), count in-degrees by a
  scatter-add of ones, take the reciprocal square root where the degree is positive, and multiply the two gathered factors
  into one weight per edge (v29). The kernel's host operations are the reference's own, on the same argument, so each value
  the later layers read — the two index lists and the edge weights — is the reference's stage of edge_index. They are
  read back from the contents @main's opening stretches leave, one stretch at a time: the stretch up to the degree
  comparison, the outlined selection (stated once over arbitrary contents, where its typed references are the identity),
  and the gathers.
-/
import proofs.«169536_j47407849013436_1_alg».proof.Proof.Gen.KernelIdeal.Frame
import proofs.«169536_j47407849013436_1_alg».proof.Proof.RefRead
import proofs.«169536_j47407849013436_1_alg».proof.Proof.LibTypedRef

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem
open Cert.ReferenceIdeal.ReadP

variable (m : (ℓ : Loc nD τ sig) → Buf (Elt Ideal) ℓ) (ρ : Dev nD → PrngReg)

/-- The edge list with the self-loops appended: the concatenation of a [1600000] and a [100000] array, as a function of
    the two (a plain two-argument spelling of the operation's literal list of pieces). -/
def cat2 {α : Type} (h : Shape.Concatenates [S1600000, S100000] S1700000 0) (a : S1600000.Idx → α) (b : S100000.Idx → α) :
    S1700000.Idx → α :=
  concatenate S1700000 0 [⟨S1600000, a⟩, ⟨S100000, b⟩] h

theorem cat2_fold {α : Type} (h : Shape.Concatenates [S1600000, S100000] S1700000 0) (a : S1600000.Idx → α) (b : S100000.Idx → α) :
    concatenate S1700000 0 [⟨S1600000, a⟩, ⟨S100000, b⟩] h = cat2 h a b := rfl

/-- A region leaves every buffer that is not one of its arrays as it found it. -/
theorem W4_ne' (c : Dev nD) (b : Ref sig .tc) (hb : ∀ w, Pipeline.arrRef spec0 w ≠ b) :
    W4 m ρ c (no_index (Proc.devRef .tc b)) = W3 m ρ c (Proc.devRef .tc b) := W4_of_ne m ρ c b hb
theorem W6_ne' (c : Dev nD) (b : Ref sig .tc) (hb : ∀ w, Pipeline.arrRef spec1 w ≠ b) :
    W6 m ρ c (no_index (Proc.devRef .tc b)) = W5 m ρ c (Proc.devRef .tc b) := W6_of_ne m ρ c b hb
theorem W7_ne' (c : Dev nD) (b : Ref sig .tc) (hb : ∀ w, Pipeline.arrRef spec2 w ≠ b) :
    W7 m ρ c (no_index (Proc.devRef .tc b)) = W6 m ρ c (Proc.devRef .tc b) := W7_of_ne m ρ c b hb
theorem W9_ne' (c : Dev nD) (b : Ref sig .tc) (hb : ∀ w, Pipeline.arrRef spec3 w ≠ b) :
    W9 m ρ c (no_index (Proc.devRef .tc b)) = W8 m ρ c (Proc.devRef .tc b) := W9_of_ne m ρ c b hb
theorem W10_ne' (c : Dev nD) (b : Ref sig .tc) (hb : ∀ w, Pipeline.arrRef spec4 w ≠ b) :
    W10 m ρ c (no_index (Proc.devRef .tc b)) = W9 m ρ c (Proc.devRef .tc b) := W10_of_ne m ρ c b hb
theorem W12_ne' (c : Dev nD) (b : Ref sig .tc) (hb : ∀ w, Pipeline.arrRef spec5 w ≠ b) :
    W12 m ρ c (no_index (Proc.devRef .tc b)) = W11 m ρ c (Proc.devRef .tc b) := W12_of_ne m ρ c b hb
theorem W14_ne' (c : Dev nD) (b : Ref sig .tc) (hb : ∀ w, Pipeline.arrRef spec6 w ≠ b) :
    W14 m ρ c (no_index (Proc.devRef .tc b)) = W13 m ρ c (Proc.devRef .tc b) := W14_of_ne m ρ c b hb

/-- The contents after each of the three opening stretches of host operations. -/
def B1 (c : Dev nD) : Valuation τ sig (Elt Ideal) := W1 m ρ c
def B2 (c : Dev nD) : Valuation τ sig (Elt Ideal) := W2 m ρ c
def B3 (c : Dev nD) : Valuation τ sig (Elt Ideal) := W3 m ρ c

/-- Region 0 leaves every buffer that is not one of its arrays at the third stretch's contents. -/
theorem W4_B3 (c : Dev nD) (b : Ref sig .tc) (hb : ∀ w, Pipeline.arrRef spec0 w ≠ b) :
    W4 m ρ c (no_index (Proc.devRef .tc b)) = B3 m ρ c (Proc.devRef .tc b) := W4_of_ne m ρ c b hb

/-- Read a buffer after a stretch of host operations: each operation's result at its own buffer is its function's value,
    at any other buffer what was there. -/
macro "stretch" "[" ds:Lean.Parser.Tactic.simpLemma,* "]" : tactic =>
  `(tactic| simp (disch := first | assumption | decide) only [$ds,*, cat2_fold, StableHlo.after_cons, StableHlo.after_nil,
      StableHlo.nullary_result', StableHlo.unary_result', StableHlo.binary_result', StableHlo.ternary_result',
      StableHlo.quaternary_result', StableHlo.reshape_result',
      StableHlo.nullary_result_ne', StableHlo.unary_result_ne', StableHlo.binary_result_ne', StableHlo.ternary_result_ne',
      StableHlo.quaternary_result_ne', StableHlo.reshape_result_ne'])

/-- Walk a buffer's contents at a later boundary back through the host stretches after the first region's entry and
    through the regions that do not write it, until a region's result array or the first region's entry contents. -/
macro "walk" : tactic =>
  `(tactic| simp (disch := decide) only [W4_B3, W6_ne', W7_ne', W9_ne', W10_ne', W12_ne', W14_ne',
      W5, W8, W11, W13, V5, V6, V8, V9, V11, V13, hostOps1, hostOps3, hostOps5, hostOps6, StableHlo.after_cons, StableHlo.after_nil,
      StableHlo.nullary_result', StableHlo.unary_result', StableHlo.binary_result', StableHlo.ternary_result',
      StableHlo.quaternary_result', StableHlo.reshape_result',
      StableHlo.nullary_result_ne', StableHlo.unary_result_ne', StableHlo.binary_result_ne', StableHlo.ternary_result_ne',
      StableHlo.quaternary_result_ne', StableHlo.reshape_result_ne'])

variable (c : Dev nD)

set_option quotPrecheck false
local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)
local notation "a9" => m ((c : Thread nD τ).loc main_arg9)
local notation "a10" => m ((c : Thread nD τ).loc main_arg10)
set_option quotPrecheck true

/-! ## The opening stretch: the two index lists, the degree's comparison and its reciprocal square root -/

set_option maxRecDepth 100000 in
set_option maxHeartbeats 1000000 in
theorem k1_v3 : B1 m ρ c (Proc.devRef .tc main_v3) = val_main_v3 (F := Ideal) a1 := by
  show W1 m ρ c (Proc.devRef .tc main_v3) = _
  stretch [W0, W1, hostOps0]
  rfl

set_option maxRecDepth 100000 in
set_option maxHeartbeats 1000000 in
theorem k1_v6 : B1 m ρ c (Proc.devRef .tc main_v6) = val_main_v6 (F := Ideal) a1 := by
  show W1 m ρ c (Proc.devRef .tc main_v6) = _
  stretch [W0, W1, hostOps0]
  rfl

set_option maxRecDepth 100000 in
set_option maxHeartbeats 1000000 in
theorem k1_v12 : B1 m ρ c (Proc.devRef .tc main_v12) = val_main_v12 (F := Ideal) a1 := by
  show W1 m ρ c (Proc.devRef .tc main_v12) = _
  stretch [W0, W1, hostOps0]
  rfl

set_option maxRecDepth 100000 in
set_option maxHeartbeats 1000000 in
theorem k1_v13 : B1 m ρ c (Proc.devRef .tc main_v13) = val_main_v13 (F := Ideal) a1 := by
  show W1 m ρ c (Proc.devRef .tc main_v13) = _
  stretch [W0, W1, hostOps0]
  rfl

set_option maxHeartbeats 1000000 in
theorem k1_cst2 : B1 m ρ c (Proc.devRef .tc main_cst_2) = val_main_cst_2 (F := Ideal) := by
  show W1 m ρ c (Proc.devRef .tc main_cst_2) = _
  stretch [W0, W1, hostOps0]
  rfl

/-! ## The outlined selection, over arbitrary contents -/

set_option maxHeartbeats 1000000 in
/-- The selection's result from any contents: the reciprocal square root where the comparison holds, the broadcast
    scalar elsewhere. -/
theorem where_v14 (V : Valuation τ sig (Elt Ideal)) :
    StableHlo.after hostOps0_1 V (Proc.devRef .tc main_v14)
      = select (V (Proc.devRef .tc main_v12)) (V (Proc.devRef .tc main_v13))
          (broadcastInDim S100000 ![] bcast_S_S100000 (id (V (Proc.devRef .tc main_cst_2)))) := by
  stretch [hostOps0_1, Cert.LibTypedRef.ofBuf_toBuf]
  rfl

set_option maxHeartbeats 1000000 in
/-- The selection writes its three buffers and nothing else. -/
theorem where_keep (V : Valuation τ sig (Elt Ideal)) (b : Ref sig .tc)
    (h0 : b ≠ main_call0_v0) (h1 : b ≠ main_call0_v1) (h2 : b ≠ main_v14) :
    StableHlo.after hostOps0_1 V (Proc.devRef .tc b) = V (Proc.devRef .tc b) := by
  stretch [hostOps0_1]

theorem k2_v14 : B2 m ρ c (Proc.devRef .tc main_v14) = val_main_v14 (F := Ideal) a1 := by
  refine (show B2 m ρ c (Proc.devRef .tc main_v14) = _ from where_v14 (B1 m ρ c)).trans ?_
  rw [k1_v12 m ρ c, k1_v13 m ρ c, k1_cst2 m ρ c]
  rfl

theorem k2_v3 : B2 m ρ c (Proc.devRef .tc main_v3) = val_main_v3 (F := Ideal) a1 :=
  (show B2 m ρ c (Proc.devRef .tc main_v3) = B1 m ρ c (Proc.devRef .tc main_v3) from
    where_keep (B1 m ρ c) main_v3 (by decide) (by decide) (by decide)).trans (k1_v3 m ρ c)

theorem k2_v6 : B2 m ρ c (Proc.devRef .tc main_v6) = val_main_v6 (F := Ideal) a1 :=
  (show B2 m ρ c (Proc.devRef .tc main_v6) = B1 m ρ c (Proc.devRef .tc main_v6) from
    where_keep (B1 m ρ c) main_v6 (by decide) (by decide) (by decide)).trans (k1_v6 m ρ c)

/-! ## The gathers: one weight per edge -/

set_option maxHeartbeats 1000000 in
theorem k3_v3 : B3 m ρ c (Proc.devRef .tc main_v3) = val_main_v3 (F := Ideal) a1 := by
  show StableHlo.after hostOps0_2 (B2 m ρ c) (Proc.devRef .tc main_v3) = _
  stretch [hostOps0_2]
  exact k2_v3 m ρ c

set_option maxHeartbeats 1000000 in
theorem k3_v6 : B3 m ρ c (Proc.devRef .tc main_v6) = val_main_v6 (F := Ideal) a1 := by
  show StableHlo.after hostOps0_2 (B2 m ρ c) (Proc.devRef .tc main_v6) = _
  stretch [hostOps0_2]
  exact k2_v6 m ρ c

set_option maxHeartbeats 1000000 in
theorem k3_v29 : B3 m ρ c (Proc.devRef .tc main_v29) = val_main_v29 (F := Ideal) a1 := by
  show StableHlo.after hostOps0_2 (B2 m ρ c) (Proc.devRef .tc main_v29) = _
  stretch [hostOps0_2]
  rw [k2_v14 m ρ c, k2_v3 m ρ c, k2_v6 m ρ c]
  rfl

set_option maxHeartbeats 1000000 in
/-- No operation before the first region writes an argument. -/
theorem k3_arg (b : Ref sig .tc) (hb : b = main_arg0 ∨ b = main_arg3 ∨ b = main_arg4 ∨ b = main_arg5 ∨ b = main_arg6
      ∨ b = main_arg7 ∨ b = main_arg8 ∨ b = main_arg9 ∨ b = main_arg10 ∨ b = main_arg2) :
    B3 m ρ c (Proc.devRef .tc b) = m ((c : Thread nD τ).loc b) := by
  show W3 m ρ c (Proc.devRef .tc b) = _
  rcases hb with rfl | rfl | rfl | rfl | rfl | rfl | rfl | rfl | rfl | rfl <;>
    (stretch [W0, W1, W2, W3, hostOps0, hostOps0_1, hostOps0_2])

end Cert.KernelIdeal.Val

end
-- ==== Proof.LibPlainMatmul.lean ====
/-
  A plain matrix product `[a, n] × [n, b]` (the left operand contracted on its columns, the right one on its rows,
  no batch axis) into the zero accumulator, read at an entry on the extended reals: entry `(r, j)` is the sum over
  `k` of the left operand at `(r, k)` times the right operand at `(k, j)`. General over the three extents, the two
  operand formats and the precision.
-/
import Idealize.ShloMosaic.Lib.ValueIdx
import Idealize.ShloMosaic.PureOps.Ideal.Laws

noncomputable section

open scoped BigOperators

namespace Cert.LibPlainMatmul

open Idealize.ShloMosaic Idealize.ShloMosaic.ValueIdx

variable {a n b : ℕ}

/-- The left operand's index at output entry `i` and contraction index `q`: row `i 0` … -/
theorem lhs_row (i : (⟨2, ![a, b]⟩ : Shape).Idx) (q : (DotDims.plain a n b).contr.Idx) :
    ((DotDims.plain a n b).lhsIdx i q 0).val = (i 0).val := rfl

/-- … and the contraction coordinate as its column. -/
theorem lhs_col (i : (⟨2, ![a, b]⟩ : Shape).Idx) (q : (DotDims.plain a n b).contr.Idx) :
    ((DotDims.plain a n b).lhsIdx i q 1).val = (q (⟨0, Nat.one_pos⟩ : Fin (DotDims.plain a n b).contr.rank)).val :=
  (DotDims.plain a n b).lhsIdx_val_of_single rfl i q

/-- The right operand's index: the contraction coordinate as its row … -/
theorem rhs_row (i : (⟨2, ![a, b]⟩ : Shape).Idx) (q : (DotDims.plain a n b).contr.Idx) :
    ((DotDims.plain a n b).rhsIdx i q 0).val = (q (⟨0, Nat.one_pos⟩ : Fin (DotDims.plain a n b).contr.rank)).val :=
  (DotDims.plain a n b).rhsIdx_val_of_single rfl i q

/-- … and column `i 1`. -/
theorem rhs_col (i : (⟨2, ![a, b]⟩ : Shape).Idx) (q : (DotDims.plain a n b).contr.Idx) :
    ((DotDims.plain a n b).rhsIdx i q 1).val = (i 1).val := rfl

/-- A plain matrix product into the zero accumulator, at entry `(r, j)`, is `Σₖ A (r, k) · B (k, j)`. -/
theorem matmul_zero_apply {φ₁ φ₂ : FTy} (prec : Option ContractPrecision) (A : FVec Ideal ⟨2, ![a, n]⟩ φ₁)
    (B : FVec Ideal ⟨2, ![n, b]⟩ φ₂) (r : Fin a) (j : Fin b) :
    FloatOps.matmul (DotDims.plain a n b) prec A B (constant ⟨2, ![a, b]⟩ .f32 0x00000000#32) (ix2 r j)
      = ∑ k : Fin n, A (ix2 r k) * B (ix2 k j) := by
  rw [Ideal.matmul_constant_zero_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact lhs_row _ _
      | ⟨1, _⟩ => exact (lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (rhs_row _ _).trans hk
      | ⟨1, _⟩ => exact rhs_col _ _)
  rw [el, er]

end Cert.LibPlainMatmul

end
-- ==== Proof.LibPlainDot.lean ====
/-
  The host's plain matrix product `[a, n] × [n, b]` (a `stablehlo.dot_general` contracting the left operand's columns
  with the right operand's rows, no batch axis) read at an entry on the extended reals: entry `(r, j)` is the sum over
  `k` of the left operand at `(r, k)` times the right operand at `(k, j)`. General over the three extents, the two
  operand formats and the precision.
-/
import proofs.«169536_j47407849013436_1_alg».proof.Proof.LibPlainMatmul

noncomputable section

open scoped BigOperators

namespace Cert.LibPlainDot

open Idealize.ShloMosaic Idealize.ShloMosaic.ValueIdx

variable {a n b : ℕ}

/-- The host's plain matrix product, at entry `(r, j)`, is `Σₖ A (r, k) · B (k, j)`. -/
theorem dotGeneral_apply {φ₁ φ₂ : FTy} (prec : Option ContractPrecision) (A : FVec Ideal ⟨2, ![a, n]⟩ φ₁)
    (B : FVec Ideal ⟨2, ![n, b]⟩ φ₂) (r : Fin a) (j : Fin b) :
    Host.dotGeneral (DotDims.plain a n b) prec A B (ix2 r j) = ∑ k : Fin n, A (ix2 r k) * B (ix2 k j) := by
  show FloatOps.dotGeneral (DotDims.plain a n b) prec .single A B (ix2 r j) = _
  rw [Ideal.dotGeneral_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact Cert.LibPlainMatmul.lhs_row _ _
      | ⟨1, _⟩ => exact (Cert.LibPlainMatmul.lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (Cert.LibPlainMatmul.rhs_row _ _).trans hk
      | ⟨1, _⟩ => exact Cert.LibPlainMatmul.rhs_col _ _)
  rw [el, er]

end Cert.LibPlainDot

end
-- ==== Proof.LibHostRows.lean ====
/-
  The host's keep-dimension broadcasts and its row sum, read at an entry, for any extents.

  `jnp` writes `v[:, None]` as a `broadcast_in_dim` of an `[a]` vector into an `[a, 1]` column (the vector's axis sent
  to axis 0), repeats such a column along `b` columns by a `broadcast_in_dim` with the identity axis map, writes a bias
  `[b]` as a `[1, b]` row (the vector's axis sent to axis 1) and repeats that row down `a` rows. Each, read at an
  entry, is the operand at the evident entry. A host sum over the second axis of an `[a, b]` matrix, read at row `r`
  on the extended reals, is the initial value plus the sum of that row's entries.
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.LibHostRows

open Idealize.ShloMosaic Idealize.ShloMosaic.ValueIdx

variable {α : Type}

/-- An `[a]` vector broadcast into the column `[a, 1]` reads, at `(r, u)`, the vector at `r`. -/
theorem bcast_a_a1_at {a : ℕ} (dims : Fin (⟨1, ![a]⟩ : Shape).rank → Fin (⟨2, ![a, 1]⟩ : Shape).rank) (hd : dims 0 = 0)
    (h : (⟨1, ![a]⟩ : Shape).BroadcastsInDim ⟨2, ![a, 1]⟩ dims) (x : (⟨1, ![a]⟩ : Shape).Idx → α) (r : Fin a) (u : Fin 1) :
    broadcastInDim ⟨2, ![a, 1]⟩ dims h x (ix2 r u) = x (ix1 r) := by
  refine broadcastInDim_apply dims h x (ix2 r u) (ix1 r) fun ax => ?_
  match ax with
  | ⟨0, _⟩ =>
    show r.val = if a = 1 then 0 else (ix2 r u (dims 0)).val
    rw [hd]
    split
    · have := r.isLt; omega
    · rfl

/-- A column `[a, 1]` broadcast along `b` columns reads, at `(r, k)`, the column at `r`. -/
theorem bcast_a1_ab_at {a b : ℕ} (dims : Fin (⟨2, ![a, 1]⟩ : Shape).rank → Fin (⟨2, ![a, b]⟩ : Shape).rank)
    (hd0 : dims 0 = 0) (hd1 : dims 1 = 1)
    (h : (⟨2, ![a, 1]⟩ : Shape).BroadcastsInDim ⟨2, ![a, b]⟩ dims) (x : (⟨2, ![a, 1]⟩ : Shape).Idx → α) (r : Fin a) (k : Fin b) :
    broadcastInDim ⟨2, ![a, b]⟩ dims h x (ix2 r k) = x (ix2 r (0 : Fin 1)) := by
  refine broadcastInDim_apply dims h x (ix2 r k) (ix2 r (0 : Fin 1)) fun ax => ?_
  match ax with
  | ⟨0, _⟩ =>
    show r.val = if a = 1 then 0 else (ix2 r k (dims 0)).val
    rw [hd0]
    split
    · have := r.isLt; omega
    · rfl
  | ⟨1, _⟩ =>
    show (0 : ℕ) = if (1 : ℕ) = 1 then 0 else (ix2 r k (dims 1)).val
    rw [if_pos rfl]

/-- A vector `[b]` broadcast into the row `[1, b]` reads, at `(u, j)`, the vector at `j`. -/
theorem bcast_b_1b_at {b : ℕ} (dims : Fin (⟨1, ![b]⟩ : Shape).rank → Fin (⟨2, ![1, b]⟩ : Shape).rank) (hd : dims 0 = 1)
    (h : (⟨1, ![b]⟩ : Shape).BroadcastsInDim ⟨2, ![1, b]⟩ dims) (x : (⟨1, ![b]⟩ : Shape).Idx → α) (u : Fin 1) (j : Fin b) :
    broadcastInDim ⟨2, ![1, b]⟩ dims h x (ix2 u j) = x (ix1 j) := by
  refine broadcastInDim_apply dims h x (ix2 u j) (ix1 j) fun ax => ?_
  match ax with
  | ⟨0, _⟩ =>
    show j.val = if b = 1 then 0 else (ix2 u j (dims 0)).val
    rw [hd]
    split
    · have := j.isLt; omega
    · rfl

/-- A row `[1, b]` repeated down `a` rows reads, at `(r, j)`, the row at `j`. -/
theorem bcast_1b_ab_at {a b : ℕ} (dims : Fin (⟨2, ![1, b]⟩ : Shape).rank → Fin (⟨2, ![a, b]⟩ : Shape).rank)
    (hd0 : dims 0 = 0) (hd1 : dims 1 = 1)
    (h : (⟨2, ![1, b]⟩ : Shape).BroadcastsInDim ⟨2, ![a, b]⟩ dims) (x : (⟨2, ![1, b]⟩ : Shape).Idx → α) (r : Fin a) (j : Fin b) :
    broadcastInDim ⟨2, ![a, b]⟩ dims h x (ix2 r j) = x (ix2 (0 : Fin 1) j) := by
  refine broadcastInDim_apply dims h x (ix2 r j) (ix2 (0 : Fin 1) j) fun ax => ?_
  match ax with
  | ⟨0, _⟩ =>
    show (0 : ℕ) = if (1 : ℕ) = 1 then 0 else (ix2 r j (dims 0)).val
    rw [if_pos rfl]
  | ⟨1, _⟩ =>
    show j.val = if b = 1 then 0 else (ix2 r j (dims 1)).val
    rw [hd1]
    split
    · have := j.isLt; omega
    · rfl

/-- On the extended reals the host's sum over the second axis of an `[a, b]` matrix is, at row `r`, the initial value plus
    the sum of that row's entries. -/
theorem hostReduceAdd_rows {a b : ℕ} {u : Shape} (x : FVec Ideal ⟨2, ![a, b]⟩ .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd x init h' hu (ix1 r) = init (Shape.Idx.first hu) + ∑ d : Fin b, x (ix2 r d) := by
  rw [hostReduceAdd_apply, Ideal.hostReduceAdd_single h' h]
  refine congrArg (init (Shape.Idx.first hu) + ·) (Finset.sum_congr rfl fun d _ => congrArg x (funext fun ax => Fin.ext ?_))
  match ax with
  | ⟨0, _⟩ => rfl
  | ⟨1, _⟩ => rfl

end Cert.LibHostRows

end
-- ==== Proof.LibBlockLayout.lean ====
/-
  Three layout steps of a pipelined kernel body, read at an entry, for any extents.

  A window's block carries a leading unit axis: a body that works on matrices casts a [1, R, C] block to an [R, C]
  matrix on loading and an [R, C] result back to a [1, R, C] block on storing; and a bias kept as a [1, N] row is
  repeated down the R rows of the matrix it is added to. Each step, read at an entry, is the operand read at the
  evident entry: the row-major position of (0, r, c) among [1, R, C] is that of (r, c) among [R, C].
-/
import Idealize.ShloMosaic.Lib.Pipeline.Value
import Idealize.ShloMosaic.Lib.ValueIdx

noncomputable section

namespace Cert.LibBlockLayout

open Idealize.ShloMosaic Idealize.ShloMosaic.ValueIdx

/-- A [1, R, C] block viewed as an [R, C] matrix reads, at (r, c), the block at (0, r, c). -/
theorem dropUnit_at {α : Type} {R C : ℕ} (v : (⟨3, ![1, R, C]⟩ : Shape).Idx → α)
    (h : (⟨3, ![1, R, C]⟩ : Shape).ShapeCasts ⟨2, ![R, C]⟩) (r : Fin R) (c : Fin C) :
    shapeCast ⟨2, ![R, C]⟩ v h (ix2 r c) = v (ix3 (0 : Fin 1) r c) := by
  refine shapeCast_apply v h (ix2 r c) (ix3 (0 : Fin 1) r c) ?_
  rw [Shape.rowMajor_val_three, Shape.rowMajor_val_two]
  show ((0 : ℕ) * R + r.val) * C + c.val = r.val * C + c.val
  rw [Nat.zero_mul, Nat.zero_add]

/-- An [R, C] matrix stored as a [1, R, C] block reads, at (0, r, c), the matrix at (r, c). -/
theorem addUnit_at {α : Type} {R C : ℕ} (v : (⟨2, ![R, C]⟩ : Shape).Idx → α)
    (h : (⟨2, ![R, C]⟩ : Shape).ShapeCasts ⟨3, ![1, R, C]⟩) (r : Fin R) (c : Fin C) :
    shapeCast ⟨3, ![1, R, C]⟩ v h (ix3 (0 : Fin 1) r c) = v (ix2 r c) := by
  refine shapeCast_apply v h (ix3 (0 : Fin 1) r c) (ix2 r c) ?_
  rw [Shape.rowMajor_val_three, Shape.rowMajor_val_two]
  show r.val * C + c.val = ((0 : ℕ) * R + r.val) * C + c.val
  rw [Nat.zero_mul, Nat.zero_add]

/-- A [1, N] row repeated down R rows reads, at (r, g), the row at (0, g). -/
theorem rowBroadcast_at {α : Type} {R N : ℕ} (row : (⟨2, ![1, N]⟩ : Shape).Idx → α)
    (hb : (⟨2, ![1, N]⟩ : Shape).Broadcasts ⟨2, ![R, N]⟩) (r : Fin R) (g : Fin N) :
    broadcastTo ⟨2, ![R, N]⟩ row hb (ix2 r g) = row (ix2 (0 : Fin 1) g) := by
  refine broadcastTo_apply row hb (ix2 r g) (ix2 (0 : Fin 1) g) (fun a => ?_)
  match a with
  | ⟨0, _⟩ => show (0 : ℕ) = if (1 : ℕ) = 1 then 0 else _; rw [if_pos rfl]
  | ⟨1, _⟩ =>
    show g.val = if N = 1 then 0 else g.val
    split_ifs with h
    · have := g.isLt; omega
    · rfl

end Cert.LibBlockLayout

end
-- ==== Proof.LibDenseLayers.lean ====
/-
  One dense layer, x · W + b, read at an entry on the extended reals, in the two spellings it has here: a pipelined
  kernel body's (a matrix product of the operands narrowed to bf16 into the zero accumulator, plus the bias row kept as a
  [1, N] block and repeated down the rows) and a host program's (a dot_general plus the same row repeated by a
  broadcast_in_dim).  On the extended reals a change of float format is the identity and both products are the plain
  sum over the contracted axis, so both spellings read, at (r, g), as  Σₖ x (r, k) · W (k, g) + b (0, g).

  For any extents R, K, N.  Also here: the same for a second product h · W without bias (`dotAt`), the host's zero
  matrix read at an entry, a bias vector made a [1, N] row by a reshape against the row a broadcast_in_dim along axis 1
  makes of it (`row_of_vector`), and the whole-matrix layer functions the entries belong to: x · W + b (`affLayer`),
  its rectification (`projLayer`) and the rectified two-input layer (a · Wl + b) + h · Wr (`sageLayer`).
-/
import Idealize.ShloMosaic.Lib.Pipeline.Value
import Idealize.ShloMosaic.Lib.ValueIdx
import Idealize.ShloMosaic.PureOps.Ideal.Laws
import proofs.«169536_j47407849013436_1_alg».proof.Proof.LibPlainMatmul
import proofs.«169536_j47407849013436_1_alg».proof.Proof.LibPlainDot
import proofs.«169536_j47407849013436_1_alg».proof.Proof.LibHostRows
import proofs.«169536_j47407849013436_1_alg».proof.Proof.LibBlockLayout

noncomputable section

open scoped BigOperators

namespace Cert.SageLayers

open Idealize.ShloMosaic Idealize.ShloMosaic.ValueIdx

variable {R K N : ℕ}

/-- Entry (r, g) of x · W + b, the bias a [1, N] row. -/
def affineAt (A : (⟨2, ![R, K]⟩ : Shape).Idx → EReal) (W : (⟨2, ![K, N]⟩ : Shape).Idx → EReal)
    (b : (⟨2, ![1, N]⟩ : Shape).Idx → EReal) (r : Fin R) (g : Fin N) : EReal :=
  (∑ k : Fin K, A (ix2 r k) * W (ix2 k g)) + b (ix2 (0 : Fin 1) g)

/-- The zero word of f32, on the extended reals. -/
abbrev zeroF : EReal := Ideal.ofBits .f32 0x00000000#32

/-- Entry (r, g) of h · W. -/
def dotAt (H : (⟨2, ![R, K]⟩ : Shape).Idx → EReal) (W : (⟨2, ![K, N]⟩ : Shape).Idx → EReal) (r : Fin R) (g : Fin N) : EReal :=
  ∑ k : Fin K, H (ix2 r k) * W (ix2 k g)

/-- The layer x · W + b as a whole matrix. -/
def affLayer (A : (⟨2, ![R, K]⟩ : Shape).Idx → EReal) (W : (⟨2, ![K, N]⟩ : Shape).Idx → EReal)
    (b : (⟨2, ![1, N]⟩ : Shape).Idx → EReal) : (⟨2, ![R, N]⟩ : Shape).Idx → EReal :=
  fun i => affineAt A W b (i 0) (i 1)

/-- The rectified layer max (x · W + b, 0) as a whole matrix. -/
def projLayer (A : (⟨2, ![R, K]⟩ : Shape).Idx → EReal) (W : (⟨2, ![K, N]⟩ : Shape).Idx → EReal)
    (b : (⟨2, ![1, N]⟩ : Shape).Idx → EReal) : (⟨2, ![R, N]⟩ : Shape).Idx → EReal :=
  fun i => max (affineAt A W b (i 0) (i 1)) zeroF

/-- The rectified two-input layer max ((a · Wl + b) + h · Wr, 0) as a whole matrix. -/
def sageLayer {K' : ℕ} (A : (⟨2, ![R, K]⟩ : Shape).Idx → EReal) (H : (⟨2, ![R, K']⟩ : Shape).Idx → EReal)
    (Wl : (⟨2, ![K, N]⟩ : Shape).Idx → EReal) (b : (⟨2, ![1, N]⟩ : Shape).Idx → EReal)
    (Wr : (⟨2, ![K', N]⟩ : Shape).Idx → EReal) : (⟨2, ![R, N]⟩ : Shape).Idx → EReal :=
  fun i => max (affineAt A Wl b (i 0) (i 1) + dotAt H Wr (i 0) (i 1)) zeroF

/-- The kernel body's second product, read at an entry. -/
theorem kernel_dot_at (H : FVec Ideal ⟨2, ![R, K]⟩ .f32) (W : FVec Ideal ⟨2, ![K, N]⟩ .f32)
    (h1 : FTy.bf16.bits < FTy.f32.bits) (h2 : FTy.bf16.bits < FTy.f32.bits) (r : Fin R) (g : Fin N) :
    matmul (DotDims.plain R K N) none (truncf .bf16 H h1) (truncf .bf16 W h2) (constant ⟨2, ![R, N]⟩ .f32 0x00000000#32) (ix2 r g)
      = dotAt H W r g :=
  Cert.LibPlainMatmul.matmul_zero_apply none (truncf .bf16 H h1) (truncf .bf16 W h2) r g

/-- The host's product read at an entry. -/
theorem host_dot_at (H : FVec Ideal ⟨2, ![R, K]⟩ .f32) (W : FVec Ideal ⟨2, ![K, N]⟩ .f32) (r : Fin R) (g : Fin N) :
    Host.dotGeneral (DotDims.plain R K N) none H W (ix2 r g) = dotAt H W r g :=
  Cert.LibPlainDot.dotGeneral_apply none H W r g

/-- The host's zero matrix read at an entry. -/
theorem host_zero_at {s : Shape} (d : Fin (⟨0, ![]⟩ : Shape).rank → Fin s.rank) (hb : (⟨0, ![]⟩ : Shape).BroadcastsInDim s d)
    (i : s.Idx) : broadcastInDim s d hb (constant (F := Ideal) ⟨0, ![]⟩ .f32 0x00000000#32) i = zeroF :=
  broadcastInDim_apply d hb _ i ix0 (fun a => a.elim0)

/-- The kernel body's spelling of the layer before its rectifier. -/
theorem kernel_affine_at (A : FVec Ideal ⟨2, ![R, K]⟩ .f32) (W : FVec Ideal ⟨2, ![K, N]⟩ .f32)
    (b : FVec Ideal ⟨2, ![1, N]⟩ .f32) (h1 : FTy.bf16.bits < FTy.f32.bits) (h2 : FTy.bf16.bits < FTy.f32.bits)
    (hc : (⟨2, ![1, N]⟩ : Shape).ShapeCasts ⟨2, ![1, N]⟩) (hb : (⟨2, ![1, N]⟩ : Shape).Broadcasts ⟨2, ![R, N]⟩)
    (r : Fin R) (g : Fin N) :
    addf (matmul (DotDims.plain R K N) none (truncf .bf16 A h1) (truncf .bf16 W h2) (constant ⟨2, ![R, N]⟩ .f32 0x00000000#32))
        (broadcastTo ⟨2, ![R, N]⟩ (shapeCast ⟨2, ![1, N]⟩ b hc) hb) (ix2 r g)
      = affineAt A W b r g := by
  rw [addf_apply]
  refine congrArg₂ (· + ·) ?_ ?_
  · exact Cert.LibPlainMatmul.matmul_zero_apply none (truncf .bf16 A h1) (truncf .bf16 W h2) r g
  · rw [Cert.LibBlockLayout.rowBroadcast_at, shapeCast_self]

/-- The host's spelling of the layer before its rectifier, the bias given as a vector. -/
theorem host_affine_at (A : FVec Ideal ⟨2, ![R, K]⟩ .f32) (W : FVec Ideal ⟨2, ![K, N]⟩ .f32)
    (b : FVec Ideal ⟨1, ![N]⟩ .f32)
    (d1 : Fin (⟨1, ![N]⟩ : Shape).rank → Fin (⟨2, ![1, N]⟩ : Shape).rank) (hd1 : d1 0 = 1)
    (hb1 : (⟨1, ![N]⟩ : Shape).BroadcastsInDim ⟨2, ![1, N]⟩ d1)
    (d2 : Fin (⟨2, ![1, N]⟩ : Shape).rank → Fin (⟨2, ![R, N]⟩ : Shape).rank) (hd20 : d2 0 = 0) (hd21 : d2 1 = 1)
    (hb2 : (⟨2, ![1, N]⟩ : Shape).BroadcastsInDim ⟨2, ![R, N]⟩ d2)
    (r : Fin R) (g : Fin N) :
    addf (Host.dotGeneral (DotDims.plain R K N) none A W)
        (broadcastInDim ⟨2, ![R, N]⟩ d2 hb2 (broadcastInDim ⟨2, ![1, N]⟩ d1 hb1 b)) (ix2 r g)
      = affineAt A W (broadcastInDim ⟨2, ![1, N]⟩ d1 hb1 b) r g := by
  rw [addf_apply]
  refine congrArg₂ (· + ·) ?_ ?_
  · exact Cert.LibPlainDot.dotGeneral_apply none A W r g
  · exact Cert.LibHostRows.bcast_1b_ab_at d2 hd20 hd21 hb2 _ r g

/-- A vector kept as a [1, N] row by a reshape is the same row a broadcast_in_dim along axis 1 makes of it. -/
theorem row_of_vector (b : (⟨1, ![N]⟩ : Shape).Idx → EReal)
    (d1 : Fin (⟨1, ![N]⟩ : Shape).rank → Fin (⟨2, ![1, N]⟩ : Shape).rank) (hd1 : d1 0 = 1)
    (hb1 : (⟨1, ![N]⟩ : Shape).BroadcastsInDim ⟨2, ![1, N]⟩ d1)
    (hc : (⟨1, ![N]⟩ : Shape).ShapeCasts ⟨2, ![1, N]⟩) :
    broadcastInDim ⟨2, ![1, N]⟩ d1 hb1 b = shapeCast ⟨2, ![1, N]⟩ b hc := by
  funext i
  obtain ⟨u, j, rfl⟩ : ∃ (u : Fin 1) (j : Fin N), i = ix2 u j := ⟨i 0, i 1, eq_ix2 i⟩
  rw [Cert.LibHostRows.bcast_b_1b_at d1 hd1 hb1 b u j]
  refine (shapeCast_apply b hc (ix2 u j) (ix1 j) ?_).symm
  rw [Shape.rowMajor_val_one, Shape.rowMajor_val_two]
  have hu : u.val = 0 := by omega
  show j.val = u.val * N + j.val
  rw [hu, Nat.zero_mul, Nat.zero_add]

end Cert.SageLayers

end
-- ==== Proof.GcnLaws.lean ====
/-
  Three layers of a graph convolution network meet the host's spelling of them on the extended reals.

  * the dense transform h · W: a matrix product of the operands narrowed to bf16 into the zero accumulator, against a
    dot_general — both are, at (r, g), the plain sum  Σₖ h (r, k) · W (k, g)  (a change of float format is the identity);
  * the bias and the rectifier, max (x + b, 0), the bias kept as a [1, N] row and repeated down the rows, against the
    host's sum with the row broadcast and a maximum with the zero matrix — both are, at (r, g),  max (x (r, g) + b (0, g)) 0;
  * the final head x · W + b in the same two spellings.

  For any extents. Each law is stated once at an entry, for a kernel body's operands (a block) and for the host's
  (whole arrays), and then for whole arrays as one function.
-/
import Idealize.ShloMosaic.Lib.Pipeline.Value
import Idealize.ShloMosaic.Lib.ValueIdx
import Idealize.ShloMosaic.PureOps.Ideal.Laws
import proofs.«169536_j47407849013436_1_alg».proof.Proof.LibDenseLayers

noncomputable section

open scoped BigOperators

namespace Cert.GcnLaws

open Idealize.ShloMosaic Idealize.ShloMosaic.ValueIdx Cert.SageLayers

variable {R K N : ℕ}

/-- The product h · W as a whole matrix: entry i is the sum over k of h (i₀, k) · W (k, i₁). -/
def mmArr (H : (⟨2, ![R, K]⟩ : Shape).Idx → EReal) (W : (⟨2, ![K, N]⟩ : Shape).Idx → EReal) :
    (⟨2, ![R, N]⟩ : Shape).Idx → EReal := fun i => dotAt H W (i 0) (i 1)

/-- max (x + b, 0) as a whole matrix, the bias a [1, N] row: entry i is max (x i + b (0, i₁)) 0. -/
def reluArr (X : (⟨2, ![R, N]⟩ : Shape).Idx → EReal) (b : (⟨2, ![1, N]⟩ : Shape).Idx → EReal) :
    (⟨2, ![R, N]⟩ : Shape).Idx → EReal := fun i => max (X i + b (ix2 (0 : Fin 1) (i 1))) zeroF

/-! ## A kernel body's spellings, at an entry of a block -/

/-- The body's product, its left operand first passed through a cast to its own shape. -/
theorem kernel_dot_cast_at (H : FVec Ideal ⟨2, ![R, K]⟩ .f32) (W : FVec Ideal ⟨2, ![K, N]⟩ .f32)
    (hc : (⟨2, ![R, K]⟩ : Shape).ShapeCasts ⟨2, ![R, K]⟩)
    (h1 : FTy.bf16.bits < FTy.f32.bits) (h2 : FTy.bf16.bits < FTy.f32.bits) (r : Fin R) (g : Fin N) :
    matmul (DotDims.plain R K N) none (truncf .bf16 (shapeCast ⟨2, ![R, K]⟩ H hc) h1) (truncf .bf16 W h2)
        (constant ⟨2, ![R, N]⟩ .f32 0x00000000#32) (ix2 r g)
      = dotAt H W r g := by
  rw [shapeCast_self]
  exact kernel_dot_at H W h1 h2 r g

/-- The body's bias and rectifier: both operands cast to their own shapes, the row repeated down the rows, the zero
    splat from the scalar word. -/
theorem kernel_relu_at (X : FVec Ideal ⟨2, ![R, N]⟩ .f32) (b : FVec Ideal ⟨2, ![1, N]⟩ .f32)
    (hx : (⟨2, ![R, N]⟩ : Shape).ShapeCasts ⟨2, ![R, N]⟩) (hc : (⟨2, ![1, N]⟩ : Shape).ShapeCasts ⟨2, ![1, N]⟩)
    (hb : (⟨2, ![1, N]⟩ : Shape).Broadcasts ⟨2, ![R, N]⟩) (r : Fin R) (g : Fin N) :
    maximumf (addf (shapeCast ⟨2, ![R, N]⟩ X hx) (broadcastTo ⟨2, ![R, N]⟩ (shapeCast ⟨2, ![1, N]⟩ b hc) hb))
        (broadcast ⟨2, ![R, N]⟩ (Scalar.ofBits (F := Ideal) .f32 0x00000000#32)) (ix2 r g)
      = max (X (ix2 r g) + b (ix2 (0 : Fin 1) g)) zeroF := by
  rw [maximumf_apply, addf_apply, broadcast_apply, shapeCast_self, shapeCast_self, Cert.LibBlockLayout.rowBroadcast_at]
  rfl

/-- The body's final head, its left operand first passed through a cast to its own shape. -/
theorem kernel_affine_cast_at (A : FVec Ideal ⟨2, ![R, K]⟩ .f32) (W : FVec Ideal ⟨2, ![K, N]⟩ .f32)
    (b : FVec Ideal ⟨2, ![1, N]⟩ .f32) (ha : (⟨2, ![R, K]⟩ : Shape).ShapeCasts ⟨2, ![R, K]⟩)
    (h1 : FTy.bf16.bits < FTy.f32.bits) (h2 : FTy.bf16.bits < FTy.f32.bits)
    (hc : (⟨2, ![1, N]⟩ : Shape).ShapeCasts ⟨2, ![1, N]⟩) (hb : (⟨2, ![1, N]⟩ : Shape).Broadcasts ⟨2, ![R, N]⟩)
    (r : Fin R) (g : Fin N) :
    addf (matmul (DotDims.plain R K N) none (truncf .bf16 (shapeCast ⟨2, ![R, K]⟩ A ha) h1) (truncf .bf16 W h2)
          (constant ⟨2, ![R, N]⟩ .f32 0x00000000#32))
        (broadcastTo ⟨2, ![R, N]⟩ (shapeCast ⟨2, ![1, N]⟩ b hc) hb) (ix2 r g)
      = affineAt A W b r g := by
  rw [shapeCast_self A ha]
  exact kernel_affine_at A W b h1 h2 hc hb r g

/-! ## From a block to the array: a block whose rows are rows of the array, the small operands read whole -/

/-- A block's product entry is the array's, when the block's row p is the array's row i₀ and the weights are whole. -/
theorem mm_block {r : ℕ} (X : (⟨2, ![R, K]⟩ : Shape).Idx → EReal) (W : (⟨2, ![K, N]⟩ : Shape).Idx → EReal)
    (x0 : (⟨2, ![r, K]⟩ : Shape).Idx → EReal) (x1 : (⟨2, ![K, N]⟩ : Shape).Idx → EReal)
    (i : (⟨2, ![R, N]⟩ : Shape).Idx) (p : Fin r) (q : Fin N)
    (h0 : ∀ k : Fin K, x0 (ix2 p k) = X (ix2 (i 0) k)) (h1 : ∀ k : Fin K, x1 (ix2 k q) = W (ix2 k (i 1))) :
    dotAt x0 x1 p q = mmArr X W i := by
  unfold mmArr dotAt
  exact Finset.sum_congr rfl fun k _ => by rw [h0 k, h1 k]

/-- A block's rectified entry is the array's, when the block's entry (p, q) is the array's entry i and the bias row is
    whole. -/
theorem relu_block {r : ℕ} (X : (⟨2, ![R, N]⟩ : Shape).Idx → EReal) (b : (⟨2, ![1, N]⟩ : Shape).Idx → EReal)
    (x0 : (⟨2, ![r, N]⟩ : Shape).Idx → EReal) (x1 : (⟨2, ![1, N]⟩ : Shape).Idx → EReal)
    (i : (⟨2, ![R, N]⟩ : Shape).Idx) (p : Fin r) (q : Fin N)
    (h0 : x0 (ix2 p q) = X i) (h1 : x1 (ix2 (0 : Fin 1) q) = b (ix2 (0 : Fin 1) (i 1))) :
    max (x0 (ix2 p q) + x1 (ix2 (0 : Fin 1) q)) zeroF = reluArr X b i := by
  unfold reluArr
  rw [h0, h1]

/-- A block's head entry is the array's, under the same three readings. -/
theorem aff_block {r : ℕ} (X : (⟨2, ![R, K]⟩ : Shape).Idx → EReal) (W : (⟨2, ![K, N]⟩ : Shape).Idx → EReal)
    (b : (⟨2, ![1, N]⟩ : Shape).Idx → EReal)
    (x0 : (⟨2, ![r, K]⟩ : Shape).Idx → EReal) (x1 : (⟨2, ![K, N]⟩ : Shape).Idx → EReal) (x2 : (⟨2, ![1, N]⟩ : Shape).Idx → EReal)
    (i : (⟨2, ![R, N]⟩ : Shape).Idx) (p : Fin r) (q : Fin N)
    (h0 : ∀ k : Fin K, x0 (ix2 p k) = X (ix2 (i 0) k)) (h1 : ∀ k : Fin K, x1 (ix2 k q) = W (ix2 k (i 1)))
    (h2 : x2 (ix2 (0 : Fin 1) q) = b (ix2 (0 : Fin 1) (i 1))) :
    affineAt x0 x1 x2 p q = affLayer X W b i := by
  unfold affLayer affineAt
  rw [h2]
  exact congrArg (· + b (ix2 (0 : Fin 1) (i 1))) (Finset.sum_congr rfl fun k _ => by rw [h0 k, h1 k])

/-! ## The host's spellings, as whole matrices -/

/-- The host's product is h · W. -/
theorem host_mm (H : FVec Ideal ⟨2, ![R, K]⟩ .f32) (W : FVec Ideal ⟨2, ![K, N]⟩ .f32) :
    Host.dotGeneral (DotDims.plain R K N) none H W = mmArr H W := by
  funext i
  obtain ⟨r, g, rfl⟩ : ∃ (r : Fin R) (g : Fin N), i = ix2 r g := ⟨i 0, i 1, eq_ix2 i⟩
  exact host_dot_at H W r g

/-- The host's bias and rectifier: the bias vector made a row, the row repeated down the rows, a maximum with the zero
    matrix. -/
theorem host_relu (X : FVec Ideal ⟨2, ![R, N]⟩ .f32) (b : FVec Ideal ⟨1, ![N]⟩ .f32)
    (d1 : Fin (⟨1, ![N]⟩ : Shape).rank → Fin (⟨2, ![1, N]⟩ : Shape).rank)
    (hb1 : (⟨1, ![N]⟩ : Shape).BroadcastsInDim ⟨2, ![1, N]⟩ d1)
    (d2 : Fin (⟨2, ![1, N]⟩ : Shape).rank → Fin (⟨2, ![R, N]⟩ : Shape).rank) (hd20 : d2 0 = 0) (hd21 : d2 1 = 1)
    (hb2 : (⟨2, ![1, N]⟩ : Shape).BroadcastsInDim ⟨2, ![R, N]⟩ d2)
    (dz : Fin (⟨0, ![]⟩ : Shape).rank → Fin (⟨2, ![R, N]⟩ : Shape).rank) (hz : (⟨0, ![]⟩ : Shape).BroadcastsInDim ⟨2, ![R, N]⟩ dz) :
    maximumf (addf X (broadcastInDim ⟨2, ![R, N]⟩ d2 hb2 (broadcastInDim ⟨2, ![1, N]⟩ d1 hb1 b)))
        (broadcastInDim ⟨2, ![R, N]⟩ dz hz (constant (F := Ideal) ⟨0, ![]⟩ .f32 0x00000000#32))
      = reluArr X (broadcastInDim ⟨2, ![1, N]⟩ d1 hb1 b) := by
  funext i
  obtain ⟨r, g, rfl⟩ : ∃ (r : Fin R) (g : Fin N), i = ix2 r g := ⟨i 0, i 1, eq_ix2 i⟩
  rw [maximumf_apply, addf_apply, host_zero_at, Cert.LibHostRows.bcast_1b_ab_at d2 hd20 hd21 hb2 _ r g]
  rfl

/-- The host's final head, the bias given as a vector. -/
theorem host_aff (A : FVec Ideal ⟨2, ![R, K]⟩ .f32) (W : FVec Ideal ⟨2, ![K, N]⟩ .f32) (b : FVec Ideal ⟨1, ![N]⟩ .f32)
    (d1 : Fin (⟨1, ![N]⟩ : Shape).rank → Fin (⟨2, ![1, N]⟩ : Shape).rank) (hd1 : d1 0 = 1)
    (hb1 : (⟨1, ![N]⟩ : Shape).BroadcastsInDim ⟨2, ![1, N]⟩ d1)
    (d2 : Fin (⟨2, ![1, N]⟩ : Shape).rank → Fin (⟨2, ![R, N]⟩ : Shape).rank) (hd20 : d2 0 = 0) (hd21 : d2 1 = 1)
    (hb2 : (⟨2, ![1, N]⟩ : Shape).BroadcastsInDim ⟨2, ![R, N]⟩ d2) :
    addf (Host.dotGeneral (DotDims.plain R K N) none A W)
        (broadcastInDim ⟨2, ![R, N]⟩ d2 hb2 (broadcastInDim ⟨2, ![1, N]⟩ d1 hb1 b))
      = affLayer A W (broadcastInDim ⟨2, ![1, N]⟩ d1 hb1 b) := by
  funext i
  obtain ⟨r, g, rfl⟩ : ∃ (r : Fin R) (g : Fin N), i = ix2 r g := ⟨i 0, i 1, eq_ix2 i⟩
  exact host_affine_at A W b d1 hd1 hb1 d2 hd20 hd21 hb2 r g

end Cert.GcnLaws

end
-- ==== Proof.KRegMM.lean ====
/-
  The three dense transforms h · W of the network (the first, third and fifth regions of @main), each as ONE function of
  the arrays its region finds: the region runs ten grid points, point t multiplying rows 10000 t … 10000 t + 9999 of h by
  the whole 48 × 48 weight matrix, and the ten blocks it writes back tile the result. Entry (r, g) of the result is
  Σₖ h (r, k) · W (k, g), whatever block r falls in.
-/
import proofs.«169536_j47407849013436_1_alg».proof.Proof.Gen.KernelIdeal.Frame
import proofs.«169536_j47407849013436_1_alg».proof.Proof.GcnLaws

set_option maxRecDepth 16384

noncomputable section

open scoped BigOperators

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat)
open Cert.SageLayers Cert.GcnLaws

variable (V : (c : Dev nD) → (b : Ref sig .tc) → Buf (Elt Ideal) ((c : Thread nD τ).loc b))

/-- The bodies load and store whole blocks: every access starts at the origin. -/
theorem hz2 : (![0, 0] : Fin 2 → Nat) = fun _ => 0 := funext fun a => by fin_cases a <;> rfl

/-! ## Region 0: a dense transform h · W, ten row blocks of 10000 rows -/

/-- The body's stored value at an entry of the block: the plain sum over the 48 contracted columns. -/
theorem pay0_at (x0 : Vec Ideal S10000x48 .f32) (x1 : Vec Ideal S48x48 .f32) (p : Fin 10000) (q : Fin 48) :
    k0_pay1 x0 x1 (ix2 p q) = dotAt x0 x1 p q := by
  unfold k0_pay1
  exact kernel_dot_at x0 x1 _ _ p q

/-- The printed index maps over the grid: point t takes row block t of the left operand and of the result, and the
    whole weight matrix. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of h · W of the two arrays as the region finds them: the block's row p is the
    array's row 10000 t + p, and the weights are read whole. -/
theorem flushed0 (c : Dev nD) (t : Fin cfg0.N) :
    (dat0 V c).flushed 2 t = ((cfg0.win 2).blk t).view.read (Elt Ideal)
      (mmArr (R := 100000) (K := 48) (N := 48) (V c (Pipeline.arrRef spec0 0)) (V c (Pipeline.arrRef spec0 1))) := by
  show (cfg0.win 2).cut (grid0.coords t) ((dat0 V c).after 2 t) = _
  rw [after0_2]
  unfold out0_2
  rw [View.canon_unit_zero hz2]
  simp only [View.ld_unit_zero (S := S10000x48) hz2, View.ld_unit_zero (S := S48x48) hz2]
  obtain ⟨e0, e1, e2, e3, e4, e5⟩ := idx0 t
  funext j
  show k0_pay1 (iblk0 V c 0 t) (iblk0 V c 1 t) j
      = mmArr (R := 100000) (K := 48) (N := 48) (V c (Pipeline.arrRef spec0 0)) (V c (Pipeline.arrRef spec0 1)) (((cfg0.win 2).blk t).view.emb j)
  refine (congrArg (k0_pay1 (iblk0 V c 0 t) (iblk0 V c 1 t)) (eq_ix2 j)).trans ?_
  refine (pay0_at (iblk0 V c 0 t) (iblk0 V c 1 t) (j 0) (j 1)).trans ?_
  refine mm_block _ _ _ _ _ (j 0) (j 1) (fun k => ?_) (fun k => ?_)
  · show V c (Pipeline.arrRef spec0 0) (((cfg0.win 0).blk t).view.emb (ix2 (j 0) k)) = _
    refine congrArg _ (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 48 + 1 * k.val = k.val; omega
  · show V c (Pipeline.arrRef spec0 1) (((cfg0.win 1).blk t).view.emb (ix2 k (j 1))) = _
    refine congrArg _ (funext fun a => Fin.ext ?_)
    match a with
    | ⟨0, _⟩ => show win0_1.index t (0 : Fin 2) * 48 + 1 * k.val = k.val; omega
    | ⟨1, _⟩ => show win0_1.index t (1 : Fin 2) * 48 + 1 * (j 1).val = win0_2.index t (1 : Fin 2) * 48 + 1 * (j 1).val; omega

/-- An index of the array is in point t's block iff each coordinate is in the block's range on its axis. -/
theorem mem_blk0 (t : Fin cfg0.N) (i : S100000x48.Idx) :
    i ∈ ((cfg0.win 2).blk t).view.set ↔ ∀ a : Fin 2, win0_2.index t a * S10000x48.size a ≤ (i a).val
      ∧ (i a).val < win0_2.index t a * S10000x48.size a + S10000x48.size a := by
  show i ∈ ((View.whole main_v30).slice (win0_2.rect t)).set ↔ _
  rw [View.set_slice_whole, Rect.mem_set_unit]
  exact Iff.rfl

/-- Every row block is some point's. -/
theorem onto0 : ∀ q : Fin 10, ∃ t : Fin cfg0.N, win0_2.index t = ![q.val, 0] :=
  (by decide +kernel : ∀ q : Fin 10, ∃ t : Fin grid0.N, win0_2.index t = ![q.val, 0])

/-- The ten blocks cover the array: row r lies in block r / 10000. -/
theorem cover0 (i : S100000x48.Idx) :
    ∃ t : Fin cfg0.N, (cfg0.win 2).flush t = true ∧ i ∈ ((cfg0.win 2).blk t).view.set := by
  have hi0 : (i 0).val < 100000 := (i 0).isLt
  have hi1 : (i 1).val < 48 := (i 1).isLt
  obtain ⟨t, ht⟩ := onto0 ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 48 ≤ (i 1).val ∧ (i 1).val < win0_2.index t (1 : Fin 2) * 48 + 48; omega

/-- The region's result array, whole: h · W of the two arrays as the region finds them. -/
theorem value0 (c : Dev nD) :
    (dat0 V c).arrAt 2 cfg0.N = mmArr (R := 100000) (K := 48) (N := 48) (V c (Pipeline.arrRef spec0 0)) (V c (Pipeline.arrRef spec0 1)) :=
  (dat0 V c).arrAt_eq_of_cover 2 _ (fun t _ => flushed0 V c t) (cover0)

/-! ## Region 2: a dense transform h · W, ten row blocks of 10000 rows -/

/-- The body's stored value at an entry of the block: the plain sum over the 48 contracted columns. -/
theorem pay2_at (x0 : Vec Ideal S10000x48 .f32) (x1 : Vec Ideal S48x48 .f32) (p : Fin 10000) (q : Fin 48) :
    k2_pay1 x0 x1 (ix2 p q) = dotAt x0 x1 p q := by
  unfold k2_pay1
  exact kernel_dot_cast_at x0 x1 _ _ _ p q

/-- The printed index maps over the grid: point t takes row block t of the left operand and of the result, and the
    whole weight matrix. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of h · W of the two arrays as the region finds them: the block's row p is the
    array's row 10000 t + p, and the weights are read whole. -/
theorem flushed2 (c : Dev nD) (t : Fin cfg2.N) :
    (dat2 V c).flushed 2 t = ((cfg2.win 2).blk t).view.read (Elt Ideal)
      (mmArr (R := 100000) (K := 48) (N := 48) (V c (Pipeline.arrRef spec2 0)) (V c (Pipeline.arrRef spec2 1))) := by
  show (cfg2.win 2).cut (grid2.coords t) ((dat2 V c).after 2 t) = _
  rw [after2_2]
  unfold out2_2
  rw [View.canon_unit_zero hz2]
  simp only [View.ld_unit_zero (S := S10000x48) hz2, View.ld_unit_zero (S := S48x48) hz2]
  obtain ⟨e0, e1, e2, e3, e4, e5⟩ := idx2 t
  funext j
  show k2_pay1 (iblk2 V c 0 t) (iblk2 V c 1 t) j
      = mmArr (R := 100000) (K := 48) (N := 48) (V c (Pipeline.arrRef spec2 0)) (V c (Pipeline.arrRef spec2 1)) (((cfg2.win 2).blk t).view.emb j)
  refine (congrArg (k2_pay1 (iblk2 V c 0 t) (iblk2 V c 1 t)) (eq_ix2 j)).trans ?_
  refine (pay2_at (iblk2 V c 0 t) (iblk2 V c 1 t) (j 0) (j 1)).trans ?_
  refine mm_block _ _ _ _ _ (j 0) (j 1) (fun k => ?_) (fun k => ?_)
  · show V c (Pipeline.arrRef spec2 0) (((cfg2.win 0).blk t).view.emb (ix2 (j 0) k)) = _
    refine congrArg _ (funext fun a => Fin.ext ?_)
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 48 + 1 * k.val = k.val; omega
  · show V c (Pipeline.arrRef spec2 1) (((cfg2.win 1).blk t).view.emb (ix2 k (j 1))) = _
    refine congrArg _ (funext fun a => Fin.ext ?_)
    match a with
    | ⟨0, _⟩ => show win2_1.index t (0 : Fin 2) * 48 + 1 * k.val = k.val; omega
    | ⟨1, _⟩ => show win2_1.index t (1 : Fin 2) * 48 + 1 * (j 1).val = win2_2.index t (1 : Fin 2) * 48 + 1 * (j 1).val; omega

/-- An index of the array is in point t's block iff each coordinate is in the block's range on its axis. -/
theorem mem_blk2 (t : Fin cfg2.N) (i : S100000x48.Idx) :
    i ∈ ((cfg2.win 2).blk t).view.set ↔ ∀ a : Fin 2, win2_2.index t a * S10000x48.size a ≤ (i a).val
      ∧ (i a).val < win2_2.index t a * S10000x48.size a + S10000x48.size a := by
  show i ∈ ((View.whole main_v46).slice (win2_2.rect t)).set ↔ _
  rw [View.set_slice_whole, Rect.mem_set_unit]
  exact Iff.rfl

/-- Every row block is some point's. -/
theorem onto2 : ∀ q : Fin 10, ∃ t : Fin cfg2.N, win2_2.index t = ![q.val, 0] :=
  (by decide +kernel : ∀ q : Fin 10, ∃ t : Fin grid2.N, win2_2.index t = ![q.val, 0])

/-- The ten blocks cover the array: row r lies in block r / 10000. -/
theorem cover2 (i : S100000x48.Idx) :
    ∃ t : Fin cfg2.N, (cfg2.win 2).flush t = true ∧ i ∈ ((cfg2.win 2).blk t).view.set := by
  have hi0 : (i 0).val < 100000 := (i 0).isLt
  have hi1 : (i 1).val < 48 := (i 1).isLt
  obtain ⟨t, ht⟩ := onto2 ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 48 ≤ (i 1).val ∧ (i 1).val < win2_2.index t (1 : Fin 2) * 48 + 48; omega

/-- The region's result array, whole: h · W of the two arrays as the region finds them. -/
theorem value2 (c : Dev nD) :
    (dat2 V c).arrAt 2 cfg2.N = mmArr (R := 100000) (K := 48) (N := 48) (V c (Pipeline.arrRef spec2 0)) (V c (Pipeline.arrRef spec2 1)) :=
  (dat2 V c).arrAt_eq_of_cover 2 _ (fun t _ => flushed2 V c t) (cover2)

/-! ## Region 4: a dense transform h · W, ten row blocks of 10000 rows -/

/-- The body's stored value at an entry of the block: the plain sum over the 48 contracted columns. -/
theorem pay4_at (x0 : Vec Ideal S10000x48 .f32) (x1 : Vec Ideal S48x48 .f32) (p : Fin 10000) (q : Fin 48) :
    k4_pay1 x0 x1 (ix2 p q) = dotAt x0 x1 p q := by
  unfold k4_pay1
  exact kernel_dot_cast_at x0 x1 _ _ _ p q

/-- The printed index maps over the grid: point t takes row block t of the left operand and of the result, and the
    whole weight matrix. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point t writes back is block t of h · W of the two arrays as the region finds them: the block's row p is the
    array's row 10000 t + p, and the weights are read whole. -/
theorem flushed4 (c : Dev nD) (t : Fin cfg4.N) :
    (dat4 V c).flushed 2 t = ((cfg4.win 2).blk t).view.read (Elt Ideal)
      (mmArr (R := 100000) (K := 48) (N := 48) (V c (Pipeline.arrRef spec4 0)) (V c (Pipeline.arrRef spec4 1))) := by
  show (cfg4.win 2).cut (grid4.coords t) ((dat4 V c).after 2 t) = _
  rw [after4_2]
  unfold out4_2
  rw [View.canon_unit_zero hz2]
  simp only [View.ld_unit_zero (S := S10000x48) hz2, View.ld_unit_zero (S := S48x48) hz2]
  obtain ⟨e0, e1, e2, e3, e4, e5⟩ := idx4 t
  funext j
  show k4_pay1 (iblk4 V c 0 t) (iblk4 V c 1 t) j
      = mmArr (R := 100000) (K := 48) (N := 48) (V c (Pipeline.arrRef spec4 0)) (V c (Pipeline.arrRef spec4 1)) (((cfg4.win 2).blk t).view.emb j)
  refine (congrArg (k4_pay1 (iblk4 V c 0 t) (iblk4 V c 1 t)) (eq_ix2 j)).trans ?_
  refine (pay4_at (iblk4 V c 0 t) (iblk4 V c 1 t) (j 0) (j 1)).trans ?_
  refine mm_block _ _ _ _ _ (j 0) (j 1) (fun k => ?_) (fun k => ?_)
  · show V c (Pipeline.arrRef spec4 0) (((cfg4.win 0).blk t).view.emb (ix2 (j 0) k)) = _
    refine congrArg _ (funext fun a => Fin.ext ?_)
    match a with
    | ⟨0, _⟩ => show win4_0.index t (0 : Fin 2) * 10000 + 1 * (j 0).val = win4_2.index t (0 : Fin 2) * 10000 + 1 * (j 0).val; omega
    | ⟨1, _⟩ => show win4_0.index t (1 : Fin 2) * 48 + 1 * k.val = k.val; omega
  · show V c (Pipeline.arrRef spec4 1) (((cfg4.win 1).blk t).view.emb (ix2 k (j 1))) = _
    refine congrArg _ (funext fun a => Fin.ext ?_)
    match a with
    | ⟨0, _⟩ => show win4_1.index t (0 : Fin 2) * 48 + 1 * k.val = k.val; omega
    | ⟨1, _⟩ => show win4_1.index t (1 : Fin 2) * 48 + 1 * (j 1).val = win4_2.index t (1 : Fin 2) * 48 + 1 * (j 1).val; omega

/-- An index of the array is in point t's block iff each coordinate is in the block's range on its axis. -/
theorem mem_blk4 (t : Fin cfg4.N) (i : S100000x48.Idx) :
    i ∈ ((cfg4.win 2).blk t).view.set ↔ ∀ a : Fin 2, win4_2.index t a * S10000x48.size a ≤ (i a).val
      ∧ (i a).val < win4_2.index t a * S10000x48.size a + S10000x48.size a := by
  show i ∈ ((View.whole main_v62).slice (win4_2.rect t)).set ↔ _
  rw [View.set_slice_whole, Rect.mem_set_unit]
  exact Iff.rfl

/-- Every row block is some point's. -/
theorem onto4 : ∀ q : Fin 10, ∃ t : Fin cfg4.N, win4_2.index t = ![q.val, 0] :=
  (by decide +kernel : ∀ q : Fin 10, ∃ t : Fin grid4.N, win4_2.index t = ![q.val, 0])

/-- The ten blocks cover the array: row r lies in block r / 10000. -/
theorem cover4 (i : S100000x48.Idx) :
    ∃ t : Fin cfg4.N, (cfg4.win 2).flush t = true ∧ i ∈ ((cfg4.win 2).blk t).view.set := by
  have hi0 : (i 0).val < 100000 := (i 0).isLt
  have hi1 : (i 1).val < 48 := (i 1).isLt
  obtain ⟨t, ht⟩ := onto4 ⟨(i 0).val / 10000, by omega⟩
  have q0 : win4_2.index t (0 : Fin 2) = (i 0).val / 10000 := congrFun ht 0
  have q1 : win4_2.index t (1 : Fin 2) = 0 := congrFun ht 1
  refine ⟨t, flush4_2 t, ?_⟩
  rw [mem_blk4]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 48 ≤ (i 1).val ∧ (i 1).val < win4_2.index t (1 : Fin 2) * 48 + 48; omega

/-- The region's result array, whole: h · W of the two arrays as the region finds them. -/
theorem value4 (c : Dev nD) :
    (dat4 V c).arrAt 2 cfg4.N = mmArr (R := 100000) (K := 48) (N := 48) (V c (Pipeline.arrRef spec4 0)) (V c (Pipeline.arrRef spec4 1)) :=
  (dat4 V c).arrAt_eq_of_cover 2 _ (fun t _ => flushed4 V c t) (cover4)

end Cert.KernelIdeal.Val

end
-- ==== Proof.KRegRelu.lean ====
/-
  The three bias-and-rectifier steps max (x + b, 0) of the network (the second, fourth and sixth regions of @main), each
  as ONE function of the arrays its region finds: ten grid points, point t taking rows 10000 t … 10000 t + 9999 of x and
  the whole [1, 48] bias row; the ten blocks written back tile the result. Entry (r, g) is max (x (r, g) + b (0, g)) 0.
-/
import proofs.«169536_j47407849013436_1_alg».proof.Proof.Gen.KernelIdeal.Frame
import proofs.«169536_j47407849013436_1_alg».proof.Proof.GcnLaws

set_option maxRecDepth 16384

noncomputable section

open scoped BigOperators

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat)
open Cert.SageLayers Cert.GcnLaws

variable (V : (c : Dev nD) → (b : Ref sig .tc) → Buf (Elt Ideal) ((c : Thread nD τ).loc b))

/-- The bodies load and store whole blocks: every access starts at the origin. -/
theorem hz2r : (![0, 0] : Fin 2 → Nat) = fun _ => 0 := funext fun a => by fin_cases a <;> rfl

/-! ## Region 1: the bias and the rectifier, max (x + b, 0), ten row blocks of 10000 rows -/

/-- The body's stored value at an entry of the block. -/
theorem pay1_at (x0 : Vec Ideal S10000x48 .f32) (x1 : Vec Ideal S1x48 .f32) (p : Fin 10000) (q : Fin 48) :
    k1_pay1 x0 x1 (ix2 p q) = max (x0 (ix2 p q) + x1 (ix2 (0 : Fin 1) q)) zeroF := by
  unfold k1_pay1
  exact kernel_relu_at x0 x1 _ _ _ p q

/-- The printed index maps over the grid: point t takes row block t of the operand and of the result, and the whole
    bias row. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of max (x + b, 0) of the two arrays as the region finds them. -/
theorem flushed1 (c : Dev nD) (t : Fin cfg1.N) :
    (dat1 V c).flushed 2 t = ((cfg1.win 2).blk t).view.read (Elt Ideal)
      (reluArr (R := 100000) (N := 48) (V c (Pipeline.arrRef spec1 0)) (V c (Pipeline.arrRef spec1 1))) := by
  show (cfg1.win 2).cut (grid1.coords t) ((dat1 V c).after 2 t) = _
  rw [after1_2]
  unfold out1_2
  rw [View.canon_unit_zero hz2r]
  simp only [View.ld_unit_zero (S := S10000x48) hz2r, View.ld_unit_zero (S := S1x48) hz2r]
  obtain ⟨e0, e1, e2, e3, e4, e5⟩ := idx1 t
  funext j
  show k1_pay1 (iblk1 V c 0 t) (iblk1 V c 1 t) j
      = reluArr (R := 100000) (N := 48) (V c (Pipeline.arrRef spec1 0)) (V c (Pipeline.arrRef spec1 1)) (((cfg1.win 2).blk t).view.emb j)
  refine (congrArg (k1_pay1 (iblk1 V c 0 t) (iblk1 V c 1 t)) (eq_ix2 j)).trans ?_
  refine (pay1_at (iblk1 V c 0 t) (iblk1 V c 1 t) (j 0) (j 1)).trans ?_
  refine relu_block _ _ _ _ _ (j 0) (j 1) ?_ ?_
  · show V c (Pipeline.arrRef spec1 0) (((cfg1.win 0).blk t).view.emb (ix2 (j 0) (j 1))) = _
    refine congrArg _ (funext fun a => Fin.ext ?_)
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 48 + 1 * (j 1).val = win1_2.index t (1 : Fin 2) * 48 + 1 * (j 1).val; omega
  · show V c (Pipeline.arrRef spec1 1) (((cfg1.win 1).blk t).view.emb (ix2 (0 : Fin 1) (j 1))) = _
    refine congrArg _ (funext fun a => Fin.ext ?_)
    match a with
    | ⟨0, _⟩ => show win1_1.index t (0 : Fin 2) * 1 + 1 * 0 = 0; omega
    | ⟨1, _⟩ => show win1_1.index t (1 : Fin 2) * 48 + 1 * (j 1).val = win1_2.index t (1 : Fin 2) * 48 + 1 * (j 1).val; omega

/-- An index of the array is in point t's block iff each coordinate is in the block's range on its axis. -/
theorem mem_blk1 (t : Fin cfg1.N) (i : S100000x48.Idx) :
    i ∈ ((cfg1.win 2).blk t).view.set ↔ ∀ a : Fin 2, win1_2.index t a * S10000x48.size a ≤ (i a).val
      ∧ (i a).val < win1_2.index t a * S10000x48.size a + S10000x48.size a := by
  show i ∈ ((View.whole main_v45).slice (win1_2.rect t)).set ↔ _
  rw [View.set_slice_whole, Rect.mem_set_unit]
  exact Iff.rfl

/-- Every row block is some point's. -/
theorem onto1 : ∀ q : Fin 10, ∃ t : Fin cfg1.N, win1_2.index t = ![q.val, 0] :=
  (by decide +kernel : ∀ q : Fin 10, ∃ t : Fin grid1.N, win1_2.index t = ![q.val, 0])

/-- The ten blocks cover the array: row r lies in block r / 10000. -/
theorem cover1 (i : S100000x48.Idx) :
    ∃ t : Fin cfg1.N, (cfg1.win 2).flush t = true ∧ i ∈ ((cfg1.win 2).blk t).view.set := by
  have hi0 : (i 0).val < 100000 := (i 0).isLt
  have hi1 : (i 1).val < 48 := (i 1).isLt
  obtain ⟨t, ht⟩ := onto1 ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 48 ≤ (i 1).val ∧ (i 1).val < win1_2.index t (1 : Fin 2) * 48 + 48; omega

/-- The region's result array, whole: max (x + b, 0) of the two arrays as the region finds them. -/
theorem value1 (c : Dev nD) :
    (dat1 V c).arrAt 2 cfg1.N = reluArr (R := 100000) (N := 48) (V c (Pipeline.arrRef spec1 0)) (V c (Pipeline.arrRef spec1 1)) :=
  (dat1 V c).arrAt_eq_of_cover 2 _ (fun t _ => flushed1 V c t) (cover1)

/-! ## Region 3: the bias and the rectifier, max (x + b, 0), ten row blocks of 10000 rows -/

/-- The body's stored value at an entry of the block. -/
theorem pay3_at (x0 : Vec Ideal S10000x48 .f32) (x1 : Vec Ideal S1x48 .f32) (p : Fin 10000) (q : Fin 48) :
    k3_pay1 x0 x1 (ix2 p q) = max (x0 (ix2 p q) + x1 (ix2 (0 : Fin 1) q)) zeroF := by
  unfold k3_pay1
  exact kernel_relu_at x0 x1 _ _ _ p q

/-- The printed index maps over the grid: point t takes row block t of the operand and of the result, and the whole
    bias row. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of max (x + b, 0) of the two arrays as the region finds them. -/
theorem flushed3 (c : Dev nD) (t : Fin cfg3.N) :
    (dat3 V c).flushed 2 t = ((cfg3.win 2).blk t).view.read (Elt Ideal)
      (reluArr (R := 100000) (N := 48) (V c (Pipeline.arrRef spec3 0)) (V c (Pipeline.arrRef spec3 1))) := by
  show (cfg3.win 2).cut (grid3.coords t) ((dat3 V c).after 2 t) = _
  rw [after3_2]
  unfold out3_2
  rw [View.canon_unit_zero hz2r]
  simp only [View.ld_unit_zero (S := S10000x48) hz2r, View.ld_unit_zero (S := S1x48) hz2r]
  obtain ⟨e0, e1, e2, e3, e4, e5⟩ := idx3 t
  funext j
  show k3_pay1 (iblk3 V c 0 t) (iblk3 V c 1 t) j
      = reluArr (R := 100000) (N := 48) (V c (Pipeline.arrRef spec3 0)) (V c (Pipeline.arrRef spec3 1)) (((cfg3.win 2).blk t).view.emb j)
  refine (congrArg (k3_pay1 (iblk3 V c 0 t) (iblk3 V c 1 t)) (eq_ix2 j)).trans ?_
  refine (pay3_at (iblk3 V c 0 t) (iblk3 V c 1 t) (j 0) (j 1)).trans ?_
  refine relu_block _ _ _ _ _ (j 0) (j 1) ?_ ?_
  · show V c (Pipeline.arrRef spec3 0) (((cfg3.win 0).blk t).view.emb (ix2 (j 0) (j 1))) = _
    refine congrArg _ (funext fun a => Fin.ext ?_)
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 48 + 1 * (j 1).val = win3_2.index t (1 : Fin 2) * 48 + 1 * (j 1).val; omega
  · show V c (Pipeline.arrRef spec3 1) (((cfg3.win 1).blk t).view.emb (ix2 (0 : Fin 1) (j 1))) = _
    refine congrArg _ (funext fun a => Fin.ext ?_)
    match a with
    | ⟨0, _⟩ => show win3_1.index t (0 : Fin 2) * 1 + 1 * 0 = 0; omega
    | ⟨1, _⟩ => show win3_1.index t (1 : Fin 2) * 48 + 1 * (j 1).val = win3_2.index t (1 : Fin 2) * 48 + 1 * (j 1).val; omega

/-- An index of the array is in point t's block iff each coordinate is in the block's range on its axis. -/
theorem mem_blk3 (t : Fin cfg3.N) (i : S100000x48.Idx) :
    i ∈ ((cfg3.win 2).blk t).view.set ↔ ∀ a : Fin 2, win3_2.index t a * S10000x48.size a ≤ (i a).val
      ∧ (i a).val < win3_2.index t a * S10000x48.size a + S10000x48.size a := by
  show i ∈ ((View.whole main_v61).slice (win3_2.rect t)).set ↔ _
  rw [View.set_slice_whole, Rect.mem_set_unit]
  exact Iff.rfl

/-- Every row block is some point's. -/
theorem onto3 : ∀ q : Fin 10, ∃ t : Fin cfg3.N, win3_2.index t = ![q.val, 0] :=
  (by decide +kernel : ∀ q : Fin 10, ∃ t : Fin grid3.N, win3_2.index t = ![q.val, 0])

/-- The ten blocks cover the array: row r lies in block r / 10000. -/
theorem cover3 (i : S100000x48.Idx) :
    ∃ t : Fin cfg3.N, (cfg3.win 2).flush t = true ∧ i ∈ ((cfg3.win 2).blk t).view.set := by
  have hi0 : (i 0).val < 100000 := (i 0).isLt
  have hi1 : (i 1).val < 48 := (i 1).isLt
  obtain ⟨t, ht⟩ := onto3 ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_blk3]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 48 ≤ (i 1).val ∧ (i 1).val < win3_2.index t (1 : Fin 2) * 48 + 48; omega

/-- The region's result array, whole: max (x + b, 0) of the two arrays as the region finds them. -/
theorem value3 (c : Dev nD) :
    (dat3 V c).arrAt 2 cfg3.N = reluArr (R := 100000) (N := 48) (V c (Pipeline.arrRef spec3 0)) (V c (Pipeline.arrRef spec3 1)) :=
  (dat3 V c).arrAt_eq_of_cover 2 _ (fun t _ => flushed3 V c t) (cover3)

/-! ## Region 5: the bias and the rectifier, max (x + b, 0), ten row blocks of 10000 rows -/

/-- The body's stored value at an entry of the block. -/
theorem pay5_at (x0 : Vec Ideal S10000x48 .f32) (x1 : Vec Ideal S1x48 .f32) (p : Fin 10000) (q : Fin 48) :
    k5_pay1 x0 x1 (ix2 p q) = max (x0 (ix2 p q) + x1 (ix2 (0 : Fin 1) q)) zeroF := by
  unfold k5_pay1
  exact kernel_relu_at x0 x1 _ _ _ p q

/-- The printed index maps over the grid: point t takes row block t of the operand and of the result, and the whole
    bias row. -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point t writes back is block t of max (x + b, 0) of the two arrays as the region finds them. -/
theorem flushed5 (c : Dev nD) (t : Fin cfg5.N) :
    (dat5 V c).flushed 2 t = ((cfg5.win 2).blk t).view.read (Elt Ideal)
      (reluArr (R := 100000) (N := 48) (V c (Pipeline.arrRef spec5 0)) (V c (Pipeline.arrRef spec5 1))) := by
  show (cfg5.win 2).cut (grid5.coords t) ((dat5 V c).after 2 t) = _
  rw [after5_2]
  unfold out5_2
  rw [View.canon_unit_zero hz2r]
  simp only [View.ld_unit_zero (S := S10000x48) hz2r, View.ld_unit_zero (S := S1x48) hz2r]
  obtain ⟨e0, e1, e2, e3, e4, e5⟩ := idx5 t
  funext j
  show k5_pay1 (iblk5 V c 0 t) (iblk5 V c 1 t) j
      = reluArr (R := 100000) (N := 48) (V c (Pipeline.arrRef spec5 0)) (V c (Pipeline.arrRef spec5 1)) (((cfg5.win 2).blk t).view.emb j)
  refine (congrArg (k5_pay1 (iblk5 V c 0 t) (iblk5 V c 1 t)) (eq_ix2 j)).trans ?_
  refine (pay5_at (iblk5 V c 0 t) (iblk5 V c 1 t) (j 0) (j 1)).trans ?_
  refine relu_block _ _ _ _ _ (j 0) (j 1) ?_ ?_
  · show V c (Pipeline.arrRef spec5 0) (((cfg5.win 0).blk t).view.emb (ix2 (j 0) (j 1))) = _
    refine congrArg _ (funext fun a => Fin.ext ?_)
    match a with
    | ⟨0, _⟩ => show win5_0.index t (0 : Fin 2) * 10000 + 1 * (j 0).val = win5_2.index t (0 : Fin 2) * 10000 + 1 * (j 0).val; omega
    | ⟨1, _⟩ => show win5_0.index t (1 : Fin 2) * 48 + 1 * (j 1).val = win5_2.index t (1 : Fin 2) * 48 + 1 * (j 1).val; omega
  · show V c (Pipeline.arrRef spec5 1) (((cfg5.win 1).blk t).view.emb (ix2 (0 : Fin 1) (j 1))) = _
    refine congrArg _ (funext fun a => Fin.ext ?_)
    match a with
    | ⟨0, _⟩ => show win5_1.index t (0 : Fin 2) * 1 + 1 * 0 = 0; omega
    | ⟨1, _⟩ => show win5_1.index t (1 : Fin 2) * 48 + 1 * (j 1).val = win5_2.index t (1 : Fin 2) * 48 + 1 * (j 1).val; omega

/-- An index of the array is in point t's block iff each coordinate is in the block's range on its axis. -/
theorem mem_blk5 (t : Fin cfg5.N) (i : S100000x48.Idx) :
    i ∈ ((cfg5.win 2).blk t).view.set ↔ ∀ a : Fin 2, win5_2.index t a * S10000x48.size a ≤ (i a).val
      ∧ (i a).val < win5_2.index t a * S10000x48.size a + S10000x48.size a := by
  show i ∈ ((View.whole main_v77).slice (win5_2.rect t)).set ↔ _
  rw [View.set_slice_whole, Rect.mem_set_unit]
  exact Iff.rfl

/-- Every row block is some point's. -/
theorem onto5 : ∀ q : Fin 10, ∃ t : Fin cfg5.N, win5_2.index t = ![q.val, 0] :=
  (by decide +kernel : ∀ q : Fin 10, ∃ t : Fin grid5.N, win5_2.index t = ![q.val, 0])

/-- The ten blocks cover the array: row r lies in block r / 10000. -/
theorem cover5 (i : S100000x48.Idx) :
    ∃ t : Fin cfg5.N, (cfg5.win 2).flush t = true ∧ i ∈ ((cfg5.win 2).blk t).view.set := by
  have hi0 : (i 0).val < 100000 := (i 0).isLt
  have hi1 : (i 1).val < 48 := (i 1).isLt
  obtain ⟨t, ht⟩ := onto5 ⟨(i 0).val / 10000, by omega⟩
  have q0 : win5_2.index t (0 : Fin 2) = (i 0).val / 10000 := congrFun ht 0
  have q1 : win5_2.index t (1 : Fin 2) = 0 := congrFun ht 1
  refine ⟨t, flush5_2 t, ?_⟩
  rw [mem_blk5]
  intro a
  match a with
  | ⟨0, _⟩ => show win5_2.index t (0 : Fin 2) * 10000 ≤ (i 0).val ∧ (i 0).val < win5_2.index t (0 : Fin 2) * 10000 + 10000; omega
  | ⟨1, _⟩ => show win5_2.index t (1 : Fin 2) * 48 ≤ (i 1).val ∧ (i 1).val < win5_2.index t (1 : Fin 2) * 48 + 48; omega

/-- The region's result array, whole: max (x + b, 0) of the two arrays as the region finds them. -/
theorem value5 (c : Dev nD) :
    (dat5 V c).arrAt 2 cfg5.N = reluArr (R := 100000) (N := 48) (V c (Pipeline.arrRef spec5 0)) (V c (Pipeline.arrRef spec5 1)) :=
  (dat5 V c).arrAt_eq_of_cover 2 _ (fun t _ => flushed5 V c t) (cover5)

end Cert.KernelIdeal.Val

end
-- ==== Proof.KRegFinal.lean ====
/-
  The network's final head x · W + b (the seventh region of @main) as ONE function of the arrays its region finds: a single
  grid point that takes the pooled [1024, 48] matrix, the [48, 2] weights and the [1, 2] bias row whole and writes the
  whole [1024, 2] result. Entry (r, g) is Σₖ x (r, k) · W (k, g) + b (0, g).
-/
import proofs.«169536_j47407849013436_1_alg».proof.Proof.Gen.KernelIdeal.Frame
import proofs.«169536_j47407849013436_1_alg».proof.Proof.GcnLaws

set_option maxRecDepth 16384

noncomputable section

open scoped BigOperators

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat)
open Cert.SageLayers Cert.GcnLaws

variable (V : (c : Dev nD) → (b : Ref sig .tc) → Buf (Elt Ideal) ((c : Thread nD τ).loc b))

/-- The body loads and stores whole blocks: every access starts at the origin. -/
theorem hz2f : (![0, 0] : Fin 2 → Nat) = fun _ => 0 := funext fun a => by fin_cases a <;> rfl

/-- The body's stored value at an entry. -/
theorem pay6_at (x0 : Vec Ideal S1024x48 .f32) (x1 : Vec Ideal S48x2 .f32) (x2 : Vec Ideal S1x2 .f32) (p : Fin 1024) (q : Fin 2) :
    k6_pay1 x0 x1 x2 (ix2 p q) = affineAt x0 x1 x2 p q := by
  unfold k6_pay1
  exact kernel_affine_cast_at x0 x1 x2 _ _ _ _ _ p q

/-- The printed index maps at the one grid point: every window is its whole array. -/
theorem idx6 : ∀ t : Fin cfg6.N, win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0 :=
  (by decide +kernel : ∀ t : Fin grid6.N, _)

set_option maxHeartbeats 1000000 in
/-- What the point writes back is x · W + b of the three arrays as the region finds them. -/
theorem flushed6 (c : Dev nD) (t : Fin cfg6.N) :
    (dat6 V c).flushed 3 t = ((cfg6.win 3).blk t).view.read (Elt Ideal)
      (affLayer (R := 1024) (K := 48) (N := 2) (V c (Pipeline.arrRef spec6 0)) (V c (Pipeline.arrRef spec6 1)) (V c (Pipeline.arrRef spec6 2))) := by
  show (cfg6.win 3).cut (grid6.coords t) ((dat6 V c).after 3 t) = _
  rw [after6_3]
  unfold out6_3
  rw [View.canon_unit_zero hz2f]
  simp only [View.ld_unit_zero (S := S1024x48) hz2f, View.ld_unit_zero (S := S48x2) hz2f, View.ld_unit_zero (S := S1x2) hz2f]
  obtain ⟨e0, e1, e2, e3, e4, e5, e6, e7⟩ := idx6 t
  funext j
  show k6_pay1 (iblk6 V c 0 t) (iblk6 V c 1 t) (iblk6 V c 2 t) j
      = affLayer (R := 1024) (K := 48) (N := 2) (V c (Pipeline.arrRef spec6 0)) (V c (Pipeline.arrRef spec6 1)) (V c (Pipeline.arrRef spec6 2)) (((cfg6.win 3).blk t).view.emb j)
  refine (congrArg (k6_pay1 (iblk6 V c 0 t) (iblk6 V c 1 t) (iblk6 V c 2 t)) (eq_ix2 j)).trans ?_
  refine (pay6_at (iblk6 V c 0 t) (iblk6 V c 1 t) (iblk6 V c 2 t) (j 0) (j 1)).trans ?_
  refine aff_block _ _ _ _ _ _ _ (j 0) (j 1) (fun k => ?_) (fun k => ?_) ?_
  · show V c (Pipeline.arrRef spec6 0) (((cfg6.win 0).blk t).view.emb (ix2 (j 0) k)) = _
    refine congrArg _ (funext fun a => Fin.ext ?_)
    match a with
    | ⟨0, _⟩ => show win6_0.index t (0 : Fin 2) * 1024 + 1 * (j 0).val = win6_3.index t (0 : Fin 2) * 1024 + 1 * (j 0).val; omega
    | ⟨1, _⟩ => show win6_0.index t (1 : Fin 2) * 48 + 1 * k.val = k.val; omega
  · show V c (Pipeline.arrRef spec6 1) (((cfg6.win 1).blk t).view.emb (ix2 k (j 1))) = _
    refine congrArg _ (funext fun a => Fin.ext ?_)
    match a with
    | ⟨0, _⟩ => show win6_1.index t (0 : Fin 2) * 48 + 1 * k.val = k.val; omega
    | ⟨1, _⟩ => show win6_1.index t (1 : Fin 2) * 2 + 1 * (j 1).val = win6_3.index t (1 : Fin 2) * 2 + 1 * (j 1).val; omega
  · refine congrArg (V c (Pipeline.arrRef spec6 2)) (funext fun a => Fin.ext ?_)
    match a with
    | ⟨0, _⟩ => show win6_2.index t (0 : Fin 2) * 1 + 1 * 0 = 0; omega
    | ⟨1, _⟩ => show win6_2.index t (1 : Fin 2) * 2 + 1 * (j 1).val = win6_3.index t (1 : Fin 2) * 2 + 1 * (j 1).val; omega

/-- An index of the array is in the point's block iff each coordinate is in the block's range on its axis. -/
theorem mem_blk6 (t : Fin cfg6.N) (i : S1024x2.Idx) :
    i ∈ ((cfg6.win 3).blk t).view.set ↔ ∀ a : Fin 2, win6_3.index t a * S1024x2.size a ≤ (i a).val
      ∧ (i a).val < win6_3.index t a * S1024x2.size a + S1024x2.size a := by
  show i ∈ ((View.whole main_v91).slice (win6_3.rect t)).set ↔ _
  rw [View.set_slice_whole, Rect.mem_set_unit]
  exact Iff.rfl

/-- There is a grid point, and its block starts at the origin. -/
theorem onto6 : ∃ t : Fin cfg6.N, win6_3.index t = ![0, 0] :=
  (by decide +kernel : ∃ t : Fin grid6.N, win6_3.index t = ![0, 0])

/-- The one block is the whole array. -/
theorem cover6 (i : S1024x2.Idx) :
    ∃ t : Fin cfg6.N, (cfg6.win 3).flush t = true ∧ i ∈ ((cfg6.win 3).blk t).view.set := by
  have hi0 : (i 0).val < 1024 := (i 0).isLt
  have hi1 : (i 1).val < 2 := (i 1).isLt
  obtain ⟨t, ht⟩ := onto6
  have q0 : win6_3.index t (0 : Fin 2) = 0 := congrFun ht 0
  have q1 : win6_3.index t (1 : Fin 2) = 0 := congrFun ht 1
  refine ⟨t, flush6_3 t, ?_⟩
  rw [mem_blk6]
  intro a
  match a with
  | ⟨0, _⟩ => show win6_3.index t (0 : Fin 2) * 1024 ≤ (i 0).val ∧ (i 0).val < win6_3.index t (0 : Fin 2) * 1024 + 1024; omega
  | ⟨1, _⟩ => show win6_3.index t (1 : Fin 2) * 2 ≤ (i 1).val ∧ (i 1).val < win6_3.index t (1 : Fin 2) * 2 + 2; omega

/-- The region's result array, whole: x · W + b of the three arrays as the region finds them. -/
theorem value6 (c : Dev nD) :
    (dat6 V c).arrAt 3 cfg6.N = affLayer (R := 1024) (K := 48) (N := 2) (V c (Pipeline.arrRef spec6 0)) (V c (Pipeline.arrRef spec6 1)) (V c (Pipeline.arrRef spec6 2)) :=
  (dat6 V c).arrAt_eq_of_cover 3 _ (fun t _ => flushed6 V c t) (cover6)

end Cert.KernelIdeal.Val

end
-- ==== Proof.KVal.lean ====
/-
  The idealized kernel's result is the reference's, boundary by boundary.

  After the graph's normalisation @main alternates stretches of host operations with seven pipelined regions. At each
  boundary the buffer that carries the network's state holds what the reference's corresponding operation computes from
  the same arguments: a shared host stretch (the gather / scale / scatter-add of a layer, the mean pool) is the
  reference's own operations on equal operands; a dense-transform region is the reference's dot_general (both are the plain
  sum over the 48 contracted columns, a change of float format being the identity); a bias-and-rectifier region is the
  reference's sum with the broadcast bias followed by its rectifier (a bias vector made a [1, 48] row by a reshape is the
  row a broadcast along axis 1 makes of it); the final region is the reference's dot_general plus its broadcast bias.
  Chaining the boundaries gives the result buffer at the reference's value of the eleven arguments.
-/
import proofs.«169536_j47407849013436_1_alg».proof.Proof.KBase
import proofs.«169536_j47407849013436_1_alg».proof.Proof.GcnLaws
import proofs.«169536_j47407849013436_1_alg».proof.Proof.KRegMM
import proofs.«169536_j47407849013436_1_alg».proof.Proof.KRegRelu
import proofs.«169536_j47407849013436_1_alg».proof.Proof.KRegFinal

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem
open Cert.ReferenceIdeal.ReadP
open Cert.SageLayers Cert.GcnLaws

variable (m : (ℓ : Loc nD τ sig) → Buf (Elt Ideal) ℓ) (ρ : Dev nD → PrngReg)

variable (c : Dev nD)

set_option quotPrecheck false
local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)
local notation "a9" => m ((c : Thread nD τ).loc main_arg9)
local notation "a10" => m ((c : Thread nD τ).loc main_arg10)
set_option quotPrecheck true

/-! ## Layer 1 -/

set_option maxHeartbeats 1000000 in
/-- The dense transform (region 0) is the reference's dot_general. -/
theorem at_main_v30 : W4 m ρ c (Proc.devRef .tc main_v30) = val_main_v30 (F := Ideal) a0 a3 := by
  refine (W4_arr m ρ c 2).trans ?_
  rw [value0 (V3 m ρ) c]
  rw [show V3 m ρ c (Pipeline.arrRef spec0 0) = a0 from k3_arg m ρ c main_arg0 (by decide),
      show V3 m ρ c (Pipeline.arrRef spec0 1) = a3 from k3_arg m ρ c main_arg3 (by decide)]
  exact (host_mm (R := 100000) (K := 48) (N := 48) _ a3).symm

set_option maxRecDepth 100000 in
set_option maxHeartbeats 2000000 in
/-- The aggregation — gather the transformed rows at the sources, scale by the edge weights, scatter-add at the
    destinations — is the reference's, on equal operands. -/
theorem at_main_v43 : W5 m ρ c (Proc.devRef .tc main_v43) = val_main_v43 (F := Ideal) a0 a1 a3 := by
  walk
  rw [at_main_v30 m ρ c, k3_v3 m ρ c, k3_v6 m ρ c, k3_v29 m ρ c]
  rfl

set_option maxHeartbeats 1000000 in
/-- The bias kept as a [1, 48] row by a reshape is the row the reference's broadcast along axis 1 makes of it. -/
theorem at_main_v44 : W5 m ρ c (Proc.devRef .tc main_v44) = val_main_v44 (F := Ideal) a4 := by
  walk
  rw [k3_arg m ρ c main_arg4 (by decide)]
  exact (row_of_vector (N := 48) a4 ![1] rfl _ _).symm

set_option maxHeartbeats 1000000 in
/-- The bias and the rectifier (region 1) are the reference's sum with the broadcast row and its rectifier. -/
theorem at_main_v45 : W6 m ρ c (Proc.devRef .tc main_v45) = val_main_v47 (F := Ideal) a0 a1 a3 a4 := by
  refine (W6_arr m ρ c 2).trans ?_
  rw [value1 (V5 m ρ) c]
  rw [show V5 m ρ c (Pipeline.arrRef spec1 0) = val_main_v43 (F := Ideal) a0 a1 a3 from at_main_v43 m ρ c,
      show V5 m ρ c (Pipeline.arrRef spec1 1) = val_main_v44 (F := Ideal) a4 from at_main_v44 m ρ c]
  unfold val_main_v47 val_main_v46 val_main_v45 val_main_v44 val_main_call1_v0 val_main_call1_cst
  exact (host_relu (R := 100000) (N := 48) _ a4 ![1] _ ![0, 1] rfl rfl _ ![] _).symm

/-! ## Layer 2 -/

set_option maxHeartbeats 1000000 in
/-- The dense transform (region 2) is the reference's dot_general. -/
theorem at_main_v46 : W7 m ρ c (Proc.devRef .tc main_v46) = val_main_v48 (F := Ideal) a0 a1 a3 a4 a5 := by
  refine (W7_arr m ρ c 2).trans ?_
  rw [value2 (V6 m ρ) c]
  rw [show V6 m ρ c (Pipeline.arrRef spec2 0) = val_main_v47 (F := Ideal) a0 a1 a3 a4 from at_main_v45 m ρ c,
      show V6 m ρ c (Pipeline.arrRef spec2 1) = a5 from (by walk; exact k3_arg m ρ c main_arg5 (by decide))]
  exact (host_mm (R := 100000) (K := 48) (N := 48) _ a5).symm

set_option maxRecDepth 100000 in
set_option maxHeartbeats 2000000 in
/-- The aggregation — gather the transformed rows at the sources, scale by the edge weights, scatter-add at the
    destinations — is the reference's, on equal operands. -/
theorem at_main_v59 : W8 m ρ c (Proc.devRef .tc main_v59) = val_main_v61 (F := Ideal) a0 a1 a3 a4 a5 := by
  walk
  rw [at_main_v46 m ρ c, k3_v3 m ρ c, k3_v6 m ρ c, k3_v29 m ρ c]
  rfl

set_option maxHeartbeats 1000000 in
/-- The bias kept as a [1, 48] row by a reshape is the row the reference's broadcast along axis 1 makes of it. -/
theorem at_main_v60 : W8 m ρ c (Proc.devRef .tc main_v60) = val_main_v62 (F := Ideal) a6 := by
  walk
  rw [k3_arg m ρ c main_arg6 (by decide)]
  exact (row_of_vector (N := 48) a6 ![1] rfl _ _).symm

set_option maxHeartbeats 1000000 in
/-- The bias and the rectifier (region 3) are the reference's sum with the broadcast row and its rectifier. -/
theorem at_main_v61 : W9 m ρ c (Proc.devRef .tc main_v61) = val_main_v65 (F := Ideal) a0 a1 a3 a4 a5 a6 := by
  refine (W9_arr m ρ c 2).trans ?_
  rw [value3 (V8 m ρ) c]
  rw [show V8 m ρ c (Pipeline.arrRef spec3 0) = val_main_v61 (F := Ideal) a0 a1 a3 a4 a5 from at_main_v59 m ρ c,
      show V8 m ρ c (Pipeline.arrRef spec3 1) = val_main_v62 (F := Ideal) a6 from at_main_v60 m ρ c]
  unfold val_main_v65 val_main_v64 val_main_v63 val_main_v62 val_main_call2_v0 val_main_call2_cst
  exact (host_relu (R := 100000) (N := 48) _ a6 ![1] _ ![0, 1] rfl rfl _ ![] _).symm

/-! ## Layer 3 -/

set_option maxHeartbeats 1000000 in
/-- The dense transform (region 4) is the reference's dot_general. -/
theorem at_main_v62 : W10 m ρ c (Proc.devRef .tc main_v62) = val_main_v66 (F := Ideal) a0 a1 a3 a4 a5 a6 a7 := by
  refine (W10_arr m ρ c 2).trans ?_
  rw [value4 (V9 m ρ) c]
  rw [show V9 m ρ c (Pipeline.arrRef spec4 0) = val_main_v65 (F := Ideal) a0 a1 a3 a4 a5 a6 from at_main_v61 m ρ c,
      show V9 m ρ c (Pipeline.arrRef spec4 1) = a7 from (by walk; exact k3_arg m ρ c main_arg7 (by decide))]
  exact (host_mm (R := 100000) (K := 48) (N := 48) _ a7).symm

set_option maxRecDepth 100000 in
set_option maxHeartbeats 2000000 in
/-- The aggregation — gather the transformed rows at the sources, scale by the edge weights, scatter-add at the
    destinations — is the reference's, on equal operands. -/
theorem at_main_v75 : W11 m ρ c (Proc.devRef .tc main_v75) = val_main_v79 (F := Ideal) a0 a1 a3 a4 a5 a6 a7 := by
  walk
  rw [at_main_v62 m ρ c, k3_v3 m ρ c, k3_v6 m ρ c, k3_v29 m ρ c]
  rfl

set_option maxHeartbeats 1000000 in
/-- The bias kept as a [1, 48] row by a reshape is the row the reference's broadcast along axis 1 makes of it. -/
theorem at_main_v76 : W11 m ρ c (Proc.devRef .tc main_v76) = val_main_v80 (F := Ideal) a8 := by
  walk
  rw [k3_arg m ρ c main_arg8 (by decide)]
  exact (row_of_vector (N := 48) a8 ![1] rfl _ _).symm

set_option maxHeartbeats 1000000 in
/-- The bias and the rectifier (region 5) are the reference's sum with the broadcast row and its rectifier. -/
theorem at_main_v77 : W12 m ρ c (Proc.devRef .tc main_v77) = val_main_v83 (F := Ideal) a0 a1 a3 a4 a5 a6 a7 a8 := by
  refine (W12_arr m ρ c 2).trans ?_
  rw [value5 (V11 m ρ) c]
  rw [show V11 m ρ c (Pipeline.arrRef spec5 0) = val_main_v79 (F := Ideal) a0 a1 a3 a4 a5 a6 a7 from at_main_v75 m ρ c,
      show V11 m ρ c (Pipeline.arrRef spec5 1) = val_main_v80 (F := Ideal) a8 from at_main_v76 m ρ c]
  unfold val_main_v83 val_main_v82 val_main_v81 val_main_v80 val_main_call3_v0 val_main_call3_cst
  exact (host_relu (R := 100000) (N := 48) _ a8 ![1] _ ![0, 1] rfl rfl _ ![] _).symm

/-! ## The mean pool and the head -/

set_option maxRecDepth 100000 in
set_option maxHeartbeats 2000000 in
/-- The mean pool — scatter-add of the rows and of ones by graph id, a maximum with one, a quotient — is the
    reference's, on equal operands. -/
theorem at_main_v89 : W13 m ρ c (Proc.devRef .tc main_v89) = val_main_v95 (F := Ideal) a0 a1 a2 a3 a4 a5 a6 a7 a8 := by
  walk
  rw [at_main_v77 m ρ c, k3_arg m ρ c main_arg2 (by decide)]
  rfl

set_option maxHeartbeats 1000000 in
/-- The head's bias kept as a [1, 2] row. -/
theorem at_main_v90 : W13 m ρ c (Proc.devRef .tc main_v90) = val_main_v97 (F := Ideal) a10 := by
  walk
  rw [k3_arg m ρ c main_arg10 (by decide)]
  exact (row_of_vector (N := 2) a10 ![1] rfl _ _).symm

set_option maxHeartbeats 1000000 in
/-- The head (region 6) is the reference's dot_general plus its broadcast bias: the kernel's result is the reference's. -/
theorem at_main_v91 : W14 m ρ c (Proc.devRef .tc main_v91) = val_main_v99 (F := Ideal) a0 a1 a2 a3 a4 a5 a6 a7 a8 a9 a10 := by
  refine (W14_arr m ρ c 3).trans ?_
  rw [value6 (V13 m ρ) c]
  rw [show V13 m ρ c (Pipeline.arrRef spec6 0) = val_main_v95 (F := Ideal) a0 a1 a2 a3 a4 a5 a6 a7 a8 from at_main_v89 m ρ c,
      show V13 m ρ c (Pipeline.arrRef spec6 1) = a9 from (by walk; exact k3_arg m ρ c main_arg9 (by decide)),
      show V13 m ρ c (Pipeline.arrRef spec6 2) = val_main_v97 (F := Ideal) a10 from at_main_v90 m ρ c]
  unfold val_main_v99 val_main_v98 val_main_v97 val_main_v96
  exact (host_aff (R := 1024) (K := 48) (N := 2) _ a9 a10 ![1] rfl _ ![0, 1] rfl rfl _).symm

end Cert.KernelIdeal.Val

end
-- ==== Proof.lean ====
/-
  A three-layer graph convolution network with a mean pool and a linear head, against its jnp reference, on the extended
  reals.

  The kernel's program keeps the graph operations on the host — the symmetric normalisation of the edge list with
  self-loops, and per layer the gather of rows at the sources, the scaling by the edge weights and the scatter-add at the
  destinations, then the mean pool over graph ids — and runs seven pipelined regions between them: per layer a dense
  transform h · W (operands narrowed to bf16, accumulated in f32) and a bias-and-rectifier max (x + b, 0), and a final
  head x · W + b. The reference is the same network written with dot_general, broadcasts, add and maximum.

  On the extended reals a change of float format is the identity and both matrix products are the plain sum over the 48
  contracted columns, so each region computes exactly what the reference's operation does, entry by entry; the host
  operations around the regions are the reference's own. No law of the extended reals beyond these readings is used, and
  so the finiteness of the inputs is never opened.

  The frames of the two printed kernels are the generated launch-and-write-back arguments; the reference's frame is its
  run with the result dropped; the idealization rewrote nothing, so it is preserved trivially; and the value claim puts
  the kernel's run (every buffer at the last boundary's contents) beside the reference's run (its result at the composed
  term of the arguments) and joins them by the chain of boundary equations.
-/
import proofs.«169536_j47407849013436_1_alg».proof.Defs
import proofs.«169536_j47407849013436_1_alg».proof.Proof.Gen.Kernel
import proofs.«169536_j47407849013436_1_alg».proof.Proof.Gen.Kernel.Skeleton
import proofs.«169536_j47407849013436_1_alg».proof.Proof.Gen.Kernel.Launch
import proofs.«169536_j47407849013436_1_alg».proof.Proof.Gen.Kernel.Points
import proofs.«169536_j47407849013436_1_alg».proof.Proof.Gen.Kernel.Frame
import proofs.«169536_j47407849013436_1_alg».proof.Proof.Gen.KernelIdeal
import proofs.«169536_j47407849013436_1_alg».proof.Proof.Gen.KernelIdeal.Skeleton
import proofs.«169536_j47407849013436_1_alg».proof.Proof.Gen.KernelIdeal.Launch
import proofs.«169536_j47407849013436_1_alg».proof.Proof.Gen.KernelIdeal.Points
import proofs.«169536_j47407849013436_1_alg».proof.Proof.Gen.KernelIdeal.Frame
import proofs.«169536_j47407849013436_1_alg».proof.Proof.Gen.ReferenceIdeal
import proofs.«169536_j47407849013436_1_alg».proof.Proof.Gen.Pre_finite_inputs
import proofs.«169536_j47407849013436_1_alg».proof.Proof.RefRun
import proofs.«169536_j47407849013436_1_alg».proof.Proof.RefRead
import proofs.«169536_j47407849013436_1_alg».proof.Proof.KRun
import proofs.«169536_j47407849013436_1_alg».proof.Proof.KVal
import Idealize.ShloMosaic.Adequacy
import Idealize.ShloMosaic.Init

noncomputable section

namespace Cert.Proof

open Idealize.ShloMosaic Idealize.ShloMosaic.TcCoe Idealize.SL.Sem

/-- The printed kernel runs and leaves its arguments as launched: the generated frame. -/
theorem frame_k : Cert.frame_Kernel (hKernel := Cert.Kernel.Gen.facts) (hPre_finite_inputs := Cert.Pre_finite_inputs.Gen.facts) :=
  fun m ρ _ => Cert.Kernel.Gen.frame m ρ

/-- The idealized kernel runs and leaves its arguments as launched: the generated frame. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments as launched: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories agreeing on the eleven arguments both programs end with one result: the kernel's result buffer holds
    the last boundary's contents, which the chain of boundary equations identifies with the reference's stage of the
    arguments; the reference's result is that stage. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W14 m ρ c (Proc.devRef .tc Cert.KernelIdeal.main_v91),
    Cert.KernelIdeal.RunAll.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10⟩ := hagree c
  rw [Cert.ReferenceIdeal.ReadP.val_main_v99_eq, h0, h1, h2, h3, h4, h5, h6, h7, h8, h9, h10]
  exact (Cert.KernelIdeal.Val.at_main_v91 m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
